-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v122)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v122) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x256 : Shape := ⟨2, ![512, 256]⟩
abbrev S256 : Shape := ⟨1, ![256]⟩
abbrev S256x32 : Shape := ⟨2, ![256, 32]⟩
abbrev S32 : Shape := ⟨1, ![32]⟩
abbrev S2x1600000 : Shape := ⟨2, ![2, 1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S256x32 1) : IVec S_ 1 :=
  let main_c_5 : IVec S_ 1 := constantI S_ 1 1#1
  let main_v17 : IVec S_ 1 := (fun x v => Host.reduce IntOp.andi x v reducesTo_S256x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x512 .f32) (main_arg1 : FVec F S512x256 .f32) (main_arg2 : FVec F S256 .f32) (main_arg3 : FVec F S256x32 .f32) (main_arg4 : FVec F S32 .f32) (main_arg5 : IVec S2x1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x32 .f32 := Host.absf main_arg3
  let main_cst_4 : FVec F S_ .f32 := constant S_ .f32 0x7F800000#32
  let main_v15 : FVec F S256x32 .f32 := broadcastInDim S256x32 ![] bcast_S_S256x32 main_cst_4
  let main_v16 : IVec S256x32 1 := cmpf .olt main_v14 main_v15
  fn_part1 (F := F) main_arg4 main_v13 main_v16
-- ==== Kernel.lean ====
abbrev S100000x512 : Shape := ⟨2, ![100000, 512]⟩
abbrev S512x256 : Shape := ⟨2, ![512, 256]⟩
abbrev S256 : Shape := ⟨1, ![256]⟩
abbrev S256x32 : Shape := ⟨2, ![256, 32]⟩
abbrev S32 : Shape := ⟨1, ![32]⟩
abbrev S2x1600000 : Shape := ⟨2, ![2, 1600000]⟩
abbrev S1x256 : Shape := ⟨2, ![1, 256]⟩
abbrev S_ : Shape := ⟨0, ![]⟩
abbrev S256x128 : Shape := ⟨2, ![256, 128]⟩
abbrev S128 : Shape := ⟨1, ![128]⟩
abbrev S1x128 : Shape := ⟨2, ![1, 128]⟩
abbrev S100000x128 : Shape := ⟨2, ![100000, 128]⟩
abbrev S4000x512 : Shape := ⟨2, ![4000, 512]⟩
abbrev S4000x128 : Shape := ⟨2, ![4000, 128]⟩
abbrev S4000x256 : Shape := ⟨2, ![4000, 256]⟩
abbrev S100000x32 : Shape := ⟨2, ![100000, 32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x32 : Shape := ⟨2, ![1700000, 32]⟩

abbrev nBuf : Space → Nat
  | .hbm => 169
  | .vmem => 8
  | .smem => 0
  | _ => 0

abbrev hbmTy0_0 (i : Nat) : BufTy := match i % 128 with
  | 0 => ⟨S100000x512, .f32⟩
  | 1 => ⟨S512x256, .f32⟩
  | 2 => ⟨S256, .f32⟩
  | 3 => ⟨S256x32, .f32⟩
  | 4 => ⟨S32, .f32⟩
  | 5 => ⟨S2x1600000, .i32⟩
  | 6 => ⟨S1x256, .f32⟩
  | 7 => ⟨S_, .i32⟩
  | 8 => ⟨S_, .f32⟩
  | 9 => ⟨S256x128, .f32⟩
  | 10 => ⟨S_, .i32⟩
  | 11 => ⟨S_, .f32⟩
  | 12 => ⟨S128, .f32⟩
  | 13 => ⟨S1x128, .f32⟩
  | 14 => ⟨S100000x128, .f32⟩
  | 15 => ⟨S100000x32, .f32⟩
  | 16 => ⟨S100000, .i32⟩
  | 17 => ⟨S1x1600000, .i32⟩
  | 18 => ⟨S1600000, .i32⟩
  | 19 => ⟨S1700000, .i32⟩
  | 20 => ⟨S1x1600000, .i32⟩
  | 21 => ⟨S1600000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .i1⟩
  | 32 => ⟨S_, .f32⟩
  | 33 => ⟨S100000, .f32⟩
  | 34 => ⟨S100000, .f32⟩
  | 35 => ⟨S_, .f32⟩
  | 36 => ⟨S_, .f32⟩
  | 37 => ⟨S100000, .f32⟩
  | 38 => ⟨S100000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000, .f32⟩
  | 57 => ⟨S1700000, .f32⟩
  | 58 => ⟨S1700000x1, .f32⟩
  | 59 => ⟨S_, .i32⟩
  | 60 => ⟨S1700000, .i32⟩
  | 61 => ⟨S1700000, .i1⟩
  | 62 => ⟨S_, .i32⟩
  | 63 => ⟨S1700000, .i32⟩
  | 64 => ⟨S1700000, .i32⟩
  | 65 => ⟨S1700000, .i32⟩
  | 66 => ⟨S1700000x1, .i32⟩
  | 67 => ⟨S1700000x32, .f32⟩
  | 68 => ⟨S1700000x32, .f32⟩
  | 69 => ⟨S1700000x32, .f32⟩
  | 70 => ⟨S_, .f32⟩
  | 71 => ⟨S100000x32, .f32⟩
  | 72 => ⟨S1700000x1, .i32⟩
  | 73 => ⟨S100000x32, .f32⟩
  | 74 => ⟨S_, .f32⟩
  | 75 => ⟨S100000x32, .f32⟩
  | 76 => ⟨S100000x32, .f32⟩
  | 77 => ⟨S_, .f32⟩
  | 78 => ⟨S100000x32, .f32⟩
  | 79 => ⟨S100000x32, .f32⟩
  | 80 => ⟨S100000x32, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000x32, .f32⟩
  | 90 => ⟨S1700000x32, .f32⟩
  | 91 => ⟨S1700000x32, .f32⟩
  | 92 => ⟨S_, .f32⟩
  | 93 => ⟨S100000x32, .f32⟩
  | 94 => ⟨S1700000x1, .i32⟩
  | 95 => ⟨S100000x32, .f32⟩
  | 96 => ⟨S_, .f32⟩
  | 97 => ⟨S100000x32, .f32⟩
  | 98 => ⟨S100000x32, .f32⟩
  | 99 => ⟨S_, .f32⟩
  | 100 => ⟨S100000x32, .f32⟩
  | 101 => ⟨S100000x32, .f32⟩
  | 102 => ⟨S100000x32, .f32⟩
  | 103 => ⟨S_, .i32⟩
  | 104 => ⟨S1700000, .i32⟩
  | 105 => ⟨S1700000, .i1⟩
  | 106 => ⟨S_, .i32⟩
  | 107 => ⟨S1700000, .i32⟩
  | 108 => ⟨S1700000, .i32⟩
  | 109 => ⟨S1700000, .i32⟩
  | 110 => ⟨S1700000x1, .i32⟩
  | 111 => ⟨S1700000x32, .f32⟩
  | 112 => ⟨S1700000x32, .f32⟩
  | 113 => ⟨S1700000x32, .f32⟩
  | 114 => ⟨S_, .f32⟩
  | 115 => ⟨S100000x32, .f32⟩
  | 116 => ⟨S1700000x1, .i32⟩
  | 117 => ⟨S100000x32, .f32⟩
  | 118 => ⟨S_, .f32⟩
  | 119 => ⟨S100000x32, .f32⟩
  | 120 => ⟨S100000x32, .f32⟩
  | 121 => ⟨S_, .f32⟩
  | 122 => ⟨S100000x32, .f32⟩
  | 123 => ⟨S100000x32, .f32⟩
  | 124 => ⟨S100000x32, .f32⟩
  | 125 => ⟨S_, .i32⟩
  | 126 => ⟨S1700000, .i32⟩
  | 127 => ⟨S1700000, .i1⟩
  | _ => ⟨S100000x512, .f32⟩

abbrev hbmTy0_1 (i : Nat) : BufTy := match i % 128 with
  | 0 => ⟨S_, .i32⟩
  | 1 => ⟨S1700000, .i32⟩
  | 2 => ⟨S1700000, .i32⟩
  | 3 => ⟨S1700000, .i32⟩
  | 4 => ⟨S1700000x1, .i32⟩
  | 5 => ⟨S1700000x32, .f32⟩
  | 6 => ⟨S1700000x32, .f32⟩
  | 7 => ⟨S1700000x32, .f32⟩
  | 8 => ⟨S_, .f32⟩
  | 9 => ⟨S100000x32, .f32⟩
  | 10 => ⟨S1700000x1, .i32⟩
  | 11 => ⟨S100000x32, .f32⟩
  | 12 => ⟨S_, .f32⟩
  | 13 => ⟨S100000x32, .f32⟩
  | 14 => ⟨S100000x32, .f32⟩
  | 15 => ⟨S_, .f32⟩
  | 16 => ⟨S100000x32, .f32⟩
  | 17 => ⟨S100000x32, .f32⟩
  | 18 => ⟨S100000x32, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000x32, .f32⟩
  | 28 => ⟨S1700000x32, .f32⟩
  | 29 => ⟨S1700000x32, .f32⟩
  | 30 => ⟨S_, .f32⟩
  | 31 => ⟨S100000x32, .f32⟩
  | 32 => ⟨S1700000x1, .i32⟩
  | 33 => ⟨S100000x32, .f32⟩
  | 34 => ⟨S_, .f32⟩
  | 35 => ⟨S100000x32, .f32⟩
  | 36 => ⟨S100000x32, .f32⟩
  | 37 => ⟨S_, .f32⟩
  | 38 => ⟨S100000x32, .f32⟩
  | 39 => ⟨S100000x32, .f32⟩
  | 40 => ⟨S100000x32, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x256, .f32⟩
  | .local _ .vmem, ⟨3, _⟩ => ⟨S1x256, .f32⟩
  | .local _ .vmem, ⟨4, _⟩ => ⟨S256x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_cst_4 : Ref sig .tc := ⟨.hbm, 35, rfl⟩
abbrev main_call2_v0 : Ref sig .tc := ⟨.hbm, 36, rfl⟩
abbrev main_call2_v1 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_c_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_7 : Ref sig .tc := ⟨.hbm, 48, rfl⟩
abbrev main_v29 : Ref sig .tc := ⟨.hbm, 49, rfl⟩
abbrev main_v30 : Ref sig .tc := ⟨.hbm, 50, rfl⟩
abbrev main_c_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_11 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_12 : Ref sig .tc := ⟨.hbm, 74, rfl⟩
abbrev main_v50 : Ref sig .tc := ⟨.hbm, 75, rfl⟩
abbrev main_v51 : Ref sig .tc := ⟨.hbm, 76, rfl⟩
abbrev main_cst_13 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_14 : Ref sig .tc := ⟨.hbm, 81, rfl⟩
abbrev main_v55 : Ref sig .tc := ⟨.hbm, 82, rfl⟩
abbrev main_v56 : Ref sig .tc := ⟨.hbm, 83, rfl⟩
abbrev main_c_15 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_17 : Ref sig .tc := ⟨.hbm, 96, rfl⟩
abbrev main_v67 : Ref sig .tc := ⟨.hbm, 97, rfl⟩
abbrev main_v68 : Ref sig .tc := ⟨.hbm, 98, rfl⟩
abbrev main_cst_18 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_19 : Ref sig .tc := ⟨.hbm, 103, rfl⟩
abbrev main_v72 : Ref sig .tc := ⟨.hbm, 104, rfl⟩
abbrev main_v73 : Ref sig .tc := ⟨.hbm, 105, rfl⟩
abbrev main_c_20 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_21 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_22 : Ref sig .tc := ⟨.hbm, 118, rfl⟩
abbrev main_v84 : Ref sig .tc := ⟨.hbm, 119, rfl⟩
abbrev main_v85 : Ref sig .tc := ⟨.hbm, 120, rfl⟩
abbrev main_cst_23 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_24 : Ref sig .tc := ⟨.hbm, 125, rfl⟩
abbrev main_v89 : Ref sig .tc := ⟨.hbm, 126, rfl⟩
abbrev main_v90 : Ref sig .tc := ⟨.hbm, 127, rfl⟩
abbrev main_c_25 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_26 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_27 : Ref sig .tc := ⟨.hbm, 140, rfl⟩
abbrev main_v101 : Ref sig .tc := ⟨.hbm, 141, rfl⟩
abbrev main_v102 : Ref sig .tc := ⟨.hbm, 142, rfl⟩
abbrev main_cst_28 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_c_29 : Ref sig .tc := ⟨.hbm, 147, rfl⟩
abbrev main_v106 : Ref sig .tc := ⟨.hbm, 148, rfl⟩
abbrev main_v107 : Ref sig .tc := ⟨.hbm, 149, rfl⟩
abbrev main_c_30 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_31 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_32 : Ref sig .tc := ⟨.hbm, 162, rfl⟩
abbrev main_v118 : Ref sig .tc := ⟨.hbm, 163, rfl⟩
abbrev main_v119 : Ref sig .tc := ⟨.hbm, 164, rfl⟩
abbrev main_cst_33 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S256_S1x256 : S256.ShapeCasts S1x256
  pads_S256x32_S256x128_000_0960 : S256x32.Pads (![0, 0] : Fin 2 → Nat) ![0, 96] ![0, 0] S256x128
  h_S_ : 0 < S_.numel
  pads_S32_S128_0960 : S32.Pads (![0] : Fin 1 → Nat) ![96] ![0] S128
  shapeCasts_S128_S1x128 : S128.ShapeCasts S1x128
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4000x256 : S1x256.Broadcasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  slices_S100000x128_S100000x32_0_0 : S100000x128.Slices ![0, 0] S100000x32
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  dot_S4000x512_S512x256_S4000x256_1_0_0_1_n_n_wf : DotDims.WF S4000x512 S512x256 S4000x256 [1] [0] [0] [1] [] []
  dot_S4000x256_S256x128_S4000x128_1_0_0_1_n_n_wf : DotDims.WF S4000x256 S256x128 S4000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .f32 = 32 ∨ (Rect.block (s := S256x128) S256x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def dot_S4000x512_S512x256_S4000x256_1_0_0_1_n_n : DotDims S4000x512 S512x256 S4000x256 where
  lhsContracting := [1]
  rhsContracting := [0]
  lhsNonContracting := [0]
  rhsNonContracting := [1]
  lhsBatch := []
  rhsBatch := []
  wf := dot_S4000x512_S512x256_S4000x256_1_0_0_1_n_n_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S512x256 : Shape := ⟨2, ![512, 256]⟩
abbrev S256 : Shape := ⟨1, ![256]⟩
abbrev S256x32 : Shape := ⟨2, ![256, 32]⟩
abbrev S32 : Shape := ⟨1, ![32]⟩
abbrev S2x1600000 : Shape := ⟨2, ![2, 1600000]⟩
abbrev S100000x256 : Shape := ⟨2, ![100000, 256]⟩
abbrev S1x256 : Shape := ⟨2, ![1, 256]⟩
abbrev S_ : Shape := ⟨0, ![]⟩
abbrev S100000x32 : Shape := ⟨2, ![100000, 32]⟩
abbrev S1x32 : Shape := ⟨2, ![1, 32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S1700000x1 : Shape := ⟨2, ![1700000, 1]⟩
abbrev S1700000x32 : Shape := ⟨2, ![1700000, 32]⟩

abbrev nBuf : Space → Nat
  | .hbm => 170
  | .vmem => 0
  | .smem => 0
  | _ => 0

abbrev hbmTy0_0 (i : Nat) : BufTy := match i % 128 with
  | 0 => ⟨S100000x512, .f32⟩
  | 1 => ⟨S512x256, .f32⟩
  | 2 => ⟨S256, .f32⟩
  | 3 => ⟨S256x32, .f32⟩
  | 4 => ⟨S32, .f32⟩
  | 5 => ⟨S2x1600000, .i32⟩
  | 6 => ⟨S100000x256, .f32⟩
  | 7 => ⟨S1x256, .f32⟩
  | 8 => ⟨S100000x256, .f32⟩
  | 9 => ⟨S100000x256, .f32⟩
  | 10 => ⟨S_, .f32⟩
  | 11 => ⟨S100000x256, .f32⟩
  | 12 => ⟨S100000x256, .f32⟩
  | 13 => ⟨S100000x32, .f32⟩
  | 14 => ⟨S1x32, .f32⟩
  | 15 => ⟨S100000x32, .f32⟩
  | 16 => ⟨S100000x32, .f32⟩
  | 17 => ⟨S100000, .i32⟩
  | 18 => ⟨S1x1600000, .i32⟩
  | 19 => ⟨S1600000, .i32⟩
  | 20 => ⟨S1700000, .i32⟩
  | 21 => ⟨S1x1600000, .i32⟩
  | 22 => ⟨S1600000, .i32⟩
  | 23 => ⟨S1700000, .i32⟩
  | 24 => ⟨S_, .f32⟩
  | 25 => ⟨S1700000, .f32⟩
  | 26 => ⟨S_, .f32⟩
  | 27 => ⟨S100000, .f32⟩
  | 28 => ⟨S1700000x1, .i32⟩
  | 29 => ⟨S100000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000, .f32⟩
  | 58 => ⟨S1700000, .f32⟩
  | 59 => ⟨S1700000x1, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x32, .f32⟩
  | 69 => ⟨S1700000x32, .f32⟩
  | 70 => ⟨S1700000x32, .f32⟩
  | 71 => ⟨S_, .f32⟩
  | 72 => ⟨S100000x32, .f32⟩
  | 73 => ⟨S1700000x1, .i32⟩
  | 74 => ⟨S100000x32, .f32⟩
  | 75 => ⟨S_, .f32⟩
  | 76 => ⟨S100000x32, .f32⟩
  | 77 => ⟨S100000x32, .f32⟩
  | 78 => ⟨S_, .f32⟩
  | 79 => ⟨S100000x32, .f32⟩
  | 80 => ⟨S100000x32, .f32⟩
  | 81 => ⟨S100000x32, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000x32, .f32⟩
  | 91 => ⟨S1700000x32, .f32⟩
  | 92 => ⟨S1700000x32, .f32⟩
  | 93 => ⟨S_, .f32⟩
  | 94 => ⟨S100000x32, .f32⟩
  | 95 => ⟨S1700000x1, .i32⟩
  | 96 => ⟨S100000x32, .f32⟩
  | 97 => ⟨S_, .f32⟩
  | 98 => ⟨S100000x32, .f32⟩
  | 99 => ⟨S100000x32, .f32⟩
  | 100 => ⟨S_, .f32⟩
  | 101 => ⟨S100000x32, .f32⟩
  | 102 => ⟨S100000x32, .f32⟩
  | 103 => ⟨S100000x32, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x32, .f32⟩
  | 113 => ⟨S1700000x32, .f32⟩
  | 114 => ⟨S1700000x32, .f32⟩
  | 115 => ⟨S_, .f32⟩
  | 116 => ⟨S100000x32, .f32⟩
  | 117 => ⟨S1700000x1, .i32⟩
  | 118 => ⟨S100000x32, .f32⟩
  | 119 => ⟨S_, .f32⟩
  | 120 => ⟨S100000x32, .f32⟩
  | 121 => ⟨S100000x32, .f32⟩
  | 122 => ⟨S_, .f32⟩
  | 123 => ⟨S100000x32, .f32⟩
  | 124 => ⟨S100000x32, .f32⟩
  | 125 => ⟨S100000x32, .f32⟩
  | 126 => ⟨S_, .i32⟩
  | 127 => ⟨S1700000, .i32⟩
  | _ => ⟨S100000x512, .f32⟩

abbrev hbmTy0_1 (i : Nat) : BufTy := match i % 128 with
  | 0 => ⟨S1700000, .i1⟩
  | 1 => ⟨S_, .i32⟩
  | 2 => ⟨S1700000, .i32⟩
  | 3 => ⟨S1700000, .i32⟩
  | 4 => ⟨S1700000, .i32⟩
  | 5 => ⟨S1700000x1, .i32⟩
  | 6 => ⟨S1700000x32, .f32⟩
  | 7 => ⟨S1700000x32, .f32⟩
  | 8 => ⟨S1700000x32, .f32⟩
  | 9 => ⟨S_, .f32⟩
  | 10 => ⟨S100000x32, .f32⟩
  | 11 => ⟨S1700000x1, .i32⟩
  | 12 => ⟨S100000x32, .f32⟩
  | 13 => ⟨S_, .f32⟩
  | 14 => ⟨S100000x32, .f32⟩
  | 15 => ⟨S100000x32, .f32⟩
  | 16 => ⟨S_, .f32⟩
  | 17 => ⟨S100000x32, .f32⟩
  | 18 => ⟨S100000x32, .f32⟩
  | 19 => ⟨S100000x32, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000x32, .f32⟩
  | 29 => ⟨S1700000x32, .f32⟩
  | 30 => ⟨S1700000x32, .f32⟩
  | 31 => ⟨S_, .f32⟩
  | 32 => ⟨S100000x32, .f32⟩
  | 33 => ⟨S1700000x1, .i32⟩
  | 34 => ⟨S100000x32, .f32⟩
  | 35 => ⟨S_, .f32⟩
  | 36 => ⟨S100000x32, .f32⟩
  | 37 => ⟨S100000x32, .f32⟩
  | 38 => ⟨S_, .f32⟩
  | 39 => ⟨S100000x32, .f32⟩
  | 40 => ⟨S100000x32, .f32⟩
  | 41 => ⟨S100000x32, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_1 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v24 : Ref sig .tc := ⟨.hbm, 39, rfl⟩
abbrev main_c : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_7 : Ref sig .tc := ⟨.hbm, 60, rfl⟩
abbrev main_v41 : Ref sig .tc := ⟨.hbm, 61, rfl⟩
abbrev main_v42 : Ref sig .tc := ⟨.hbm, 62, rfl⟩
abbrev main_c_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_9 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_c_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_15 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_19 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_20 : Ref sig .tc := ⟨.hbm, 119, rfl⟩
abbrev main_v87 : Ref sig .tc := ⟨.hbm, 120, rfl⟩
abbrev main_v88 : Ref sig .tc := ⟨.hbm, 121, rfl⟩
abbrev main_cst_21 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_c_22 : Ref sig .tc := ⟨.hbm, 126, rfl⟩
abbrev main_v92 : Ref sig .tc := ⟨.hbm, 127, rfl⟩
abbrev main_v93 : Ref sig .tc := ⟨.hbm, 128, rfl⟩
abbrev main_c_23 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_24 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_cst_25 : Ref sig .tc := ⟨.hbm, 141, rfl⟩
abbrev main_v104 : Ref sig .tc := ⟨.hbm, 142, rfl⟩
abbrev main_v105 : Ref sig .tc := ⟨.hbm, 143, rfl⟩
abbrev main_cst_26 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_27 : Ref sig .tc := ⟨.hbm, 148, rfl⟩
abbrev main_v109 : Ref sig .tc := ⟨.hbm, 149, rfl⟩
abbrev main_v110 : Ref sig .tc := ⟨.hbm, 150, rfl⟩
abbrev main_c_28 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_29 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_30 : Ref sig .tc := ⟨.hbm, 163, rfl⟩
abbrev main_v121 : Ref sig .tc := ⟨.hbm, 164, rfl⟩
abbrev main_v122 : Ref sig .tc := ⟨.hbm, 165, rfl⟩
abbrev main_cst_31 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  dot_S100000x512_S512x256_S100000x256_1_0_0_1_n_n_wf : DotDims.WF S100000x512 S512x256 S100000x256 [1] [0] [0] [1] [] []
  dot_S100000x256_S256x32_S100000x32_1_0_0_1_n_n_wf : DotDims.WF S100000x256 S256x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x512_S512x256_S100000x256_1_0_0_1_n_n : DotDims S100000x512 S512x256 S100000x256 where
  lhsContracting := [1]
  rhsContracting := [0]
  lhsNonContracting := [0]
  rhsNonContracting := [1]
  lhsBatch := []
  rhsBatch := []
  wf := dot_S100000x512_S512x256_S100000x256_1_0_0_1_n_n_wf
def dot_S100000x256_S256x32_S100000x32_1_0_0_1_n_n : DotDims S100000x256 S256x32 S100000x32 where
  lhsContracting := [1]
  rhsContracting := [0]
  lhsNonContracting := [0]
  rhsNonContracting := [1]
  lhsBatch := []
  rhsBatch := []
  wf := dot_S100000x256_S256x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.FrameBits.lean ====
/-
  The frame of the kernel program as printed, read at any float instance `F` (the claim cites it at the word-level one).

  @main is: eight host lines (a reshape of the first bias to a row, the second weight matrix and the second bias
  padded with zeros from 32 to 128 columns and the bias reshaped to a row), ONE region, and 154 further host lines
  (the slice back to 32 columns, then the propagation over the edge list). The region runs the body at 25 grid
  points; at point `t` it stages rows `4000 t … 4000 t + 3999` of the input matrix, the two weight matrices and the
  two bias rows whole, and writes back rows `4000 t … 4000 t + 3999` of the 100000 × 128 output.

  What is proved here:
  * no host line before the region writes an argument array, and no host line after it writes an argument array or an
    array the region stages — each line writes only its own result buffer, which is none of these (`pre_writes`,
    `post_writes`); so the region finds the arguments as launched and they end as launched;
  * the body, called on whole staging buffers holding the input blocks, leaves the input blocks in place and the
    output buffer at the one value it stores, a pure function of the five input blocks (`sound_kernel`, `out0_5`);
  * hence every weakly fair execution of @main terminates, nothing faults, each staged array ends at what the
    write-backs leave and every other buffer at what the later host lines compute (`run_main`), and the six
    argument arrays end unchanged (`frame`).
-/
import proofs.«141418_j76948634075857_1_alg».proof.Proof.Gen.Kernel.Launch
import proofs.«141418_j76948634075857_1_alg».proof.Proof.Gen.Kernel.Skeleton
import proofs.«141418_j76948634075857_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region, stretch by stretch: the first bias as a row; the zero padding of the second
    weight matrix; the zero padding of the second bias and its reshape to a row. -/
abbrev pre : List (List (HloOp τ sig (Elt F))) := [hostOps0, hostOps0_1, hostOps0_2, hostOps0_3, hostOps0_4]
/-- The host lines after the region: the slice to 32 columns and the propagation. -/
abbrev post : List (List (HloOp τ sig (Elt F))) := [hostOps1, hostOps1_1, hostOps1_2]

/-- Core `c`'s buffer contents when the region is entered: the launch memory after the host lines before it. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- @main's six argument arrays. -/
abbrev args : List (Ref sig .tc) := [main_arg0, main_arg1, main_arg2, main_arg3, main_arg4, main_arg5]
/-- The argument arrays and the four arrays the host lines before the region compute for it to stage. -/
abbrev held : List (Ref sig .tc) := [main_arg0, main_arg1, main_arg2, main_arg3, main_arg4, main_arg5, main_v0, main_v1, main_v3, main_v4]

/-- A host line allocates nothing. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- A line before the region writes only its own result, which is no argument array. -/
theorem pre_writes : ∀ ops ∈ (pre : List (List (HloOp τ sig (Elt F)))), ∀ op ∈ ops, ∀ b : Ref sig .tc,
    Proc.devRef .tc b ∈ op.writes → b ∉ args := by
  intro ops hops
  simp only [List.mem_cons, List.mem_nil_iff, or_false] at hops
  rcases hops with rfl | rfl | rfl | rfl | rfl
  all_goals
    refine List.forall_iff_forall_mem.mp ?_
    simp only [hostOps0, hostOps0_1, hostOps0_2, hostOps0_3, hostOps0_4, StableHlo.TRef.unary, StableHlo.TRef.binary, List.Forall, StableHlo.nullary_writes, StableHlo.unary_writes, StableHlo.binary_writes,
      StableHlo.ternary_writes, StableHlo.reshape_writes, Finset.mem_singleton]
    repeat' apply And.intro
    all_goals
      intro b hb
      obtain rfl := Proc.devRef_injective _ hb
      decide

/-- A line after the region writes only its own result, which is neither an argument array nor an array the region stages. -/
theorem post_writes : ∀ ops ∈ (post : List (List (HloOp τ sig (Elt F)))), ∀ op ∈ ops, ∀ b : Ref sig .tc,
    Proc.devRef .tc b ∈ op.writes → b ∉ held := by
  intro ops hops
  simp only [List.mem_cons, List.mem_nil_iff, or_false] at hops
  rcases hops with rfl | rfl | rfl
  all_goals
    refine List.forall_iff_forall_mem.mp ?_
    simp only [hostOps1, hostOps1_1, hostOps1_2, StableHlo.TRef.unary, StableHlo.TRef.ternary, List.Forall, StableHlo.nullary_writes, StableHlo.unary_writes, StableHlo.binary_writes,
      StableHlo.ternary_writes, StableHlo.reshape_writes, Finset.mem_singleton]
    repeat' apply And.intro
    all_goals
      intro b hb
      obtain rfl := Proc.devRef_injective _ hb
      decide

/-! ## The argument arrays around the region -/

/-- No host line before the region writes an argument array: the region finds it as launched. -/
theorem V_arg (c : Dev nD) (b : Ref sig .tc) (hb : b ∈ args) : V m c b = m ((c : Thread nD τ).loc b) :=
  StableHlo.after_of_forall_not_mem (b := Proc.devRef .tc b) _ _ fun op hop hw => by
    obtain ⟨ops, hops, hop'⟩ := List.mem_flatten.mp hop
    exact pre_writes ops hops op hop' b hw hb

set_option maxRecDepth 65536 in
/-- @main around the region: the host lines before it, the region, the host lines after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3, hostOps0_4] [hostOps1, hostOps1_1, hostOps1_2]
    (List.forall_iff_forall_mem.mpr fun ops hops => by
      simp only [List.mem_cons, List.mem_nil_iff, or_false] at hops
      rcases hops with rfl | rfl | rfl | rfl | rfl
      exacts [hostOps0_sub, hostOps0_1_sub, hostOps0_2_sub, hostOps0_3_sub, hostOps0_4_sub])
    (List.forall_iff_forall_mem.mpr fun ops hops => by
      simp only [List.mem_cons, List.mem_nil_iff, or_false] at hops
      rcases hops with rfl | rfl | rfl | rfl | rfl
      exacts [hostOps0_fresh, hostOps0_1_fresh, hostOps0_2_fresh, hostOps0_3_fresh, hostOps0_4_fresh]) main_chain

/-- The lines after the region touch only unscoped TensorCore buffers: the staged arrays and the buffers that bypass the region. -/
theorem sfx_sub : ∀ ops ∈ (post : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (post : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- Every array the region stages is one of the held buffers. -/
theorem arr_held : ∀ w : Fin 6, Pipeline.arrRef spec0 w ∈ held := by decide
/-- And they write no array the region stages. -/
theorem sfx_keeps : ∀ ops ∈ (post : List (List (HloOp τ sig (Elt F)))), ∀ op ∈ ops,
    ∀ w, Proc.devRef .tc (Pipeline.arrRef spec0 w) ∉ op.writes :=
  fun ops hops op hop w hw => post_writes ops hops op hop _ hw (arr_held w)

/-- An argument array the region does not stage ends as launched: no line after the region writes it, it is not
    one of the region's arrays, and no line before the region wrote it. -/
theorem W_arg (dats : (p : Fin _) → (c : Dev nD) → Dat τ (Elt F) Unit ℕ (UR sig nD τ) ℕ (cfgs p) c) (c : Dev nD)
    (b : Ref sig .tc) (hb : b ∈ args) (hne : ∀ w, Pipeline.arrRef spec0 w ≠ b) :
    Pipeline.afterTail₀ cfgs dats 0 (V0 m) [hostOps1, hostOps1_1, hostOps1_2] c b = m ((c : Thread nD τ).loc b) := by
  unfold Pipeline.afterTail₀
  rw [StableHlo.after_of_forall_not_mem (b := Proc.devRef .tc b) _ _ (fun op hop hw => by
      obtain ⟨ops, hops, hop'⟩ := List.mem_flatten.mp hop
      exact post_writes ops hops op hop' b hw (by
        simp only [args, List.mem_cons, List.mem_nil_iff, or_false] at hb
        rcases hb with rfl | rfl | rfl | rfl | rfl | rfl <;> decide)),
    Pipeline.withArrays_of_ne _ c (V0 m c) _ b hne]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved: the input matrix's window moves at every point and is fetched at every point, the four
    others never move), for any proof data whose array is the region-entry one and whose body leaves the block in
    place. One statement per input window: a window's block type reduces to its literal shape only at a literal window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the two staged arguments by the run's first clause (an input's array is never
    written back), the four others by its second clause and `W_arg`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 0).trans (((dats 0 c).arrAt_in 0 rfl _).trans ((hA c 0).trans (V_arg m c main_arg0 (by decide)))),
      ((h c).1 1).trans (((dats 0 c).arrAt_in 1 rfl _).trans ((hA c 1).trans (V_arg m c main_arg1 (by decide)))),
      ((h c).2 main_arg2 (Pipeline.mem_restRefs_of main_arg2 (by decide) (by decide))).trans (W_arg m dats c main_arg2 (by decide) (by decide)),
      ((h c).2 main_arg3 (Pipeline.mem_restRefs_of main_arg3 (by decide) (by decide))).trans (W_arg m dats c main_arg3 (by decide) (by decide)),
      ((h c).2 main_arg4 (Pipeline.mem_restRefs_of main_arg4 (by decide) (by decide))).trans (W_arg m dats c main_arg4 (by decide) (by decide)),
      ((h c).2 main_arg5 (Pipeline.mem_restRefs_of main_arg5 (by decide) (by decide))).trans (W_arg m dats c main_arg5 (by decide) (by decide))⟩) h

/-! ## The body's accesses -/

abbrev rX : Rect S4000x512 := Rect.unit (s := S4000x512) ![0, 0] S4000x512.size inb_S4000x512_S4000x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rW2 : Rect S256x128 := Rect.unit (s := S256x128) ![0, 0] S256x128.size inb_S256x128_S256x128_0_0
abbrev rB2 : Rect S1x128 := Rect.unit (s := S1x128) ![0, 0] S1x128.size inb_S1x128_S1x128_0_0
abbrev rO : Rect S4000x128 := Rect.unit (s := S4000x128) ![0, 0] S4000x128.size inb_S4000x128_S4000x128_0_0

/-! ## What the body leaves in the output window's buffer -/

/-- The output staging buffer after the body, from the five input blocks: its one store, of the whole block. -/
def out0_5 (x0 : Vec F S4000x512 .f32) (x1 : Vec F S512x256 .f32) (x2 : Vec F S1x256 .f32) (x3 : Vec F S256x128 .f32) (x4 : Vec F S1x128 .f32) : Vec F S4000x128 .f32 :=
  View.canon [⟨rO, k0_pay1 (View.ld x0 rX) (View.ld x1 rW1) (View.ld x2 rB1) (View.ld x3 rW2) (View.ld x4 rB2)⟩]

/-- The store covers the buffer. -/
theorem cover0_5 (p0 : Vec F S4000x128 .f32) (y : S4000x128.Idx) :
    ∃ pc ∈ ([⟨rO, p0⟩] : List (View.Piece (Elt F) S4000x128 .f32)), y ∈ pc.1.set :=
  View.cover_of_tiled [⟨rO, p0⟩] S4000x128.size (by rfl) y

/-! ## The body's triple -/

set_option maxHeartbeats 4000000 in
/-- The kernel body on whole staging buffers, the inputs' at contents `x0 … x4` and the output's at anything (it is
    loaded once, the value unused, then stored whole), runs to the continuation holding the inputs' as they were and
    the output's at `out0_5` of the inputs'. -/
theorem sound_kernel (c : Dev nD) (E : Set ℕ) (i : grid0.Coords)
    (arg1 : Memref sig .tc .vmem S4000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S4000x128 .f32) (harg6 : arg6.IsWhole)
    (x0 : Vec F S4000x512 .f32) (x1 : Vec F S512x256 .f32) (x2 : Vec F S1x256 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the region finds them; after the body at point `t` each
    input's buffer at its block and the output's at `out0_5` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents (the definition projected, the fold over the host lines never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' staging buffers hold their blocks, so `sound_kernel` applies; the invariant
    and the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 262144 in
set_option backward.isDefEq.respectTransparency.types false in
/-- From any memory with zero counters, every weakly fair execution of @main on the TensorCores terminates, and every
    final state has every staged array at what the write-backs leave and every other unscoped buffer as the lines
    after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: every weakly fair execution terminates, nothing faults, the six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frame

end
-- ==== Proof.FrameIdeal.lean ====
/-
  The frame of the idealized kernel program, read at any float instance `F`.

  @main is: eight host lines (a reshape of the first bias to a row, the second weight matrix and the second bias
  padded with zeros from 32 to 128 columns and the bias reshaped to a row), ONE region, and 154 further host lines
  (the slice back to 32 columns, then the propagation over the edge list). The region runs the body at 25 grid
  points; at point `t` it stages rows `4000 t … 4000 t + 3999` of the input matrix, the two weight matrices and the
  two bias rows whole, and writes back rows `4000 t … 4000 t + 3999` of the 100000 × 128 output.

  What is proved here:
  * no host line before the region writes an argument array, and no host line after it writes an argument array or an
    array the region stages — each line writes only its own result buffer, which is none of these (`pre_writes`,
    `post_writes`); so the region finds the arguments as launched and they end as launched;
  * the body, called on whole staging buffers holding the input blocks, leaves the input blocks in place and the
    output buffer at the one value it stores, a pure function of the five input blocks (`sound_kernel`, `out0_5`);
  * hence every weakly fair execution of @main terminates, nothing faults, each staged array ends at what the
    write-backs leave and every other buffer at what the later host lines compute (`run_main`), and the six
    argument arrays end unchanged (`frame`).
-/
import proofs.«141418_j76948634075857_1_alg».proof.Proof.Gen.KernelIdeal.Launch
import proofs.«141418_j76948634075857_1_alg».proof.Proof.Gen.KernelIdeal.Skeleton
import proofs.«141418_j76948634075857_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The host lines before the region, stretch by stretch: the first bias as a row; the zero padding of the second
    weight matrix; the zero padding of the second bias and its reshape to a row. -/
abbrev pre : List (List (HloOp τ sig (Elt F))) := [hostOps0, hostOps0_1, hostOps0_2, hostOps0_3, hostOps0_4]
/-- The host lines after the region: the slice to 32 columns and the propagation. -/
abbrev post : List (List (HloOp τ sig (Elt F))) := [hostOps1, hostOps1_1, hostOps1_2]

/-- Core `c`'s buffer contents when the region is entered: the launch memory after the host lines before it. -/
abbrev V0 (c : Dev nD) : Valuation τ sig (Elt F) := StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

/-- @main's six argument arrays. -/
abbrev args : List (Ref sig .tc) := [main_arg0, main_arg1, main_arg2, main_arg3, main_arg4, main_arg5]
/-- The argument arrays and the four arrays the host lines before the region compute for it to stage. -/
abbrev held : List (Ref sig .tc) := [main_arg0, main_arg1, main_arg2, main_arg3, main_arg4, main_arg5, main_v0, main_v1, main_v3, main_v4]

/-- A host line allocates nothing. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor

/-- A line before the region writes only its own result, which is no argument array. -/
theorem pre_writes : ∀ ops ∈ (pre : List (List (HloOp τ sig (Elt F)))), ∀ op ∈ ops, ∀ b : Ref sig .tc,
    Proc.devRef .tc b ∈ op.writes → b ∉ args := by
  intro ops hops
  simp only [List.mem_cons, List.mem_nil_iff, or_false] at hops
  rcases hops with rfl | rfl | rfl | rfl | rfl
  all_goals
    refine List.forall_iff_forall_mem.mp ?_
    simp only [hostOps0, hostOps0_1, hostOps0_2, hostOps0_3, hostOps0_4, StableHlo.TRef.unary, StableHlo.TRef.binary, List.Forall, StableHlo.nullary_writes, StableHlo.unary_writes, StableHlo.binary_writes,
      StableHlo.ternary_writes, StableHlo.reshape_writes, Finset.mem_singleton]
    repeat' apply And.intro
    all_goals
      intro b hb
      obtain rfl := Proc.devRef_injective _ hb
      decide

/-- A line after the region writes only its own result, which is neither an argument array nor an array the region stages. -/
theorem post_writes : ∀ ops ∈ (post : List (List (HloOp τ sig (Elt F)))), ∀ op ∈ ops, ∀ b : Ref sig .tc,
    Proc.devRef .tc b ∈ op.writes → b ∉ held := by
  intro ops hops
  simp only [List.mem_cons, List.mem_nil_iff, or_false] at hops
  rcases hops with rfl | rfl | rfl
  all_goals
    refine List.forall_iff_forall_mem.mp ?_
    simp only [hostOps1, hostOps1_1, hostOps1_2, StableHlo.TRef.unary, StableHlo.TRef.ternary, List.Forall, StableHlo.nullary_writes, StableHlo.unary_writes, StableHlo.binary_writes,
      StableHlo.ternary_writes, StableHlo.reshape_writes, Finset.mem_singleton]
    repeat' apply And.intro
    all_goals
      intro b hb
      obtain rfl := Proc.devRef_injective _ hb
      decide

/-! ## The argument arrays around the region -/

/-- No host line before the region writes an argument array: the region finds it as launched. -/
theorem V_arg (c : Dev nD) (b : Ref sig .tc) (hb : b ∈ args) : V m c b = m ((c : Thread nD τ).loc b) :=
  StableHlo.after_of_forall_not_mem (b := Proc.devRef .tc b) _ _ fun op hop hw => by
    obtain ⟨ops, hops, hop'⟩ := List.mem_flatten.mp hop
    exact pre_writes ops hops op hop' b hw hb

set_option maxRecDepth 65536 in
/-- @main around the region: the host lines before it, the region, the host lines after it; it reduces to the region
    continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0, hostOps0_1, hostOps0_2, hostOps0_3, hostOps0_4] [hostOps1, hostOps1_1, hostOps1_2]
    (List.forall_iff_forall_mem.mpr fun ops hops => by
      simp only [List.mem_cons, List.mem_nil_iff, or_false] at hops
      rcases hops with rfl | rfl | rfl | rfl | rfl
      exacts [hostOps0_sub, hostOps0_1_sub, hostOps0_2_sub, hostOps0_3_sub, hostOps0_4_sub])
    (List.forall_iff_forall_mem.mpr fun ops hops => by
      simp only [List.mem_cons, List.mem_nil_iff, or_false] at hops
      rcases hops with rfl | rfl | rfl | rfl | rfl
      exacts [hostOps0_fresh, hostOps0_1_fresh, hostOps0_2_fresh, hostOps0_3_fresh, hostOps0_4_fresh]) main_chain

/-- The lines after the region touch only unscoped TensorCore buffers: the staged arrays and the buffers that bypass the region. -/
theorem sfx_sub : ∀ ops ∈ (post : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (post : List (List (HloOp τ sig (Elt F)))), ∀ op ∈ ops, op.fresh = ∅ := by
  intro ops hops op hop
  simp only [List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop
/-- Every array the region stages is one of the held buffers. -/
theorem arr_held : ∀ w : Fin 6, Pipeline.arrRef spec0 w ∈ held := by decide
/-- And they write no array the region stages. -/
theorem sfx_keeps : ∀ ops ∈ (post : List (List (HloOp τ sig (Elt F)))), ∀ op ∈ ops,
    ∀ w, Proc.devRef .tc (Pipeline.arrRef spec0 w) ∉ op.writes :=
  fun ops hops op hop w hw => post_writes ops hops op hop _ hw (arr_held w)

/-- An argument array the region does not stage ends as launched: no line after the region writes it, it is not
    one of the region's arrays, and no line before the region wrote it. -/
theorem W_arg (dats : (p : Fin _) → (c : Dev nD) → Dat τ (Elt F) Unit ℕ (UR sig nD τ) ℕ (cfgs p) c) (c : Dev nD)
    (b : Ref sig .tc) (hb : b ∈ args) (hne : ∀ w, Pipeline.arrRef spec0 w ≠ b) :
    Pipeline.afterTail₀ cfgs dats 0 (V0 m) [hostOps1, hostOps1_1, hostOps1_2] c b = m ((c : Thread nD τ).loc b) := by
  unfold Pipeline.afterTail₀
  rw [StableHlo.after_of_forall_not_mem (b := Proc.devRef .tc b) _ _ (fun op hop hw => by
      obtain ⟨ops, hops, hop'⟩ := List.mem_flatten.mp hop
      exact post_writes ops hops op hop' b hw (by
        simp only [args, List.mem_cons, List.mem_nil_iff, or_false] at hb
        rcases hb with rfl | rfl | rfl | rfl | rfl | rfl <;> decide)),
    Pipeline.withArrays_of_ne _ c (V0 m c) _ b hne]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (unfetched, its
    block index has not moved: the input matrix's window moves at every point and is fetched at every point, the four
    others never move), for any proof data whose array is the region-entry one and whose body leaves the block in
    place. One statement per input window: a window's block type reduces to its literal shape only at a literal window. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: the two staged arguments by the run's first clause (an input's array is never
    written back), the four others by its second clause and `W_arg`. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨
      ((h c).1 0).trans (((dats 0 c).arrAt_in 0 rfl _).trans ((hA c 0).trans (V_arg m c main_arg0 (by decide)))),
      ((h c).1 1).trans (((dats 0 c).arrAt_in 1 rfl _).trans ((hA c 1).trans (V_arg m c main_arg1 (by decide)))),
      ((h c).2 main_arg2 (Pipeline.mem_restRefs_of main_arg2 (by decide) (by decide))).trans (W_arg m dats c main_arg2 (by decide) (by decide)),
      ((h c).2 main_arg3 (Pipeline.mem_restRefs_of main_arg3 (by decide) (by decide))).trans (W_arg m dats c main_arg3 (by decide) (by decide)),
      ((h c).2 main_arg4 (Pipeline.mem_restRefs_of main_arg4 (by decide) (by decide))).trans (W_arg m dats c main_arg4 (by decide) (by decide)),
      ((h c).2 main_arg5 (Pipeline.mem_restRefs_of main_arg5 (by decide) (by decide))).trans (W_arg m dats c main_arg5 (by decide) (by decide))⟩) h

/-! ## The body's accesses -/

abbrev rX : Rect S4000x512 := Rect.unit (s := S4000x512) ![0, 0] S4000x512.size inb_S4000x512_S4000x512_0_0
abbrev rW1 : Rect S512x256 := Rect.unit (s := S512x256) ![0, 0] S512x256.size inb_S512x256_S512x256_0_0
abbrev rB1 : Rect S1x256 := Rect.unit (s := S1x256) ![0, 0] S1x256.size inb_S1x256_S1x256_0_0
abbrev rW2 : Rect S256x128 := Rect.unit (s := S256x128) ![0, 0] S256x128.size inb_S256x128_S256x128_0_0
abbrev rB2 : Rect S1x128 := Rect.unit (s := S1x128) ![0, 0] S1x128.size inb_S1x128_S1x128_0_0
abbrev rO : Rect S4000x128 := Rect.unit (s := S4000x128) ![0, 0] S4000x128.size inb_S4000x128_S4000x128_0_0

/-! ## What the body leaves in the output window's buffer -/

/-- The output staging buffer after the body, from the five input blocks: its one store, of the whole block. -/
def out0_5 (x0 : Vec F S4000x512 .f32) (x1 : Vec F S512x256 .f32) (x2 : Vec F S1x256 .f32) (x3 : Vec F S256x128 .f32) (x4 : Vec F S1x128 .f32) : Vec F S4000x128 .f32 :=
  View.canon [⟨rO, k0_pay1 (View.ld x0 rX) (View.ld x1 rW1) (View.ld x2 rB1) (View.ld x3 rW2) (View.ld x4 rB2)⟩]

/-- The store covers the buffer. -/
theorem cover0_5 (p0 : Vec F S4000x128 .f32) (y : S4000x128.Idx) :
    ∃ pc ∈ ([⟨rO, p0⟩] : List (View.Piece (Elt F) S4000x128 .f32)), y ∈ pc.1.set :=
  View.cover_of_tiled [⟨rO, p0⟩] S4000x128.size (by rfl) y

/-! ## The body's triple -/

set_option maxHeartbeats 4000000 in
/-- The kernel body on whole staging buffers, the inputs' at contents `x0 … x4` and the output's at anything (it is
    loaded once, the value unused, then stored whole), runs to the continuation holding the inputs' as they were and
    the output's at `out0_5` of the inputs'. -/
theorem sound_kernel (c : Dev nD) (E : Set ℕ) (i : grid0.Coords)
    (arg1 : Memref sig .tc .vmem S4000x512 .f32) (harg1 : arg1.IsWhole) (arg2 : Memref sig .tc .vmem S512x256 .f32) (harg2 : arg2.IsWhole)
    (arg3 : Memref sig .tc .vmem S1x256 .f32) (harg3 : arg3.IsWhole) (arg4 : Memref sig .tc .vmem S256x128 .f32) (harg4 : arg4.IsWhole)
    (arg5 : Memref sig .tc .vmem S1x128 .f32) (harg5 : arg5.IsWhole) (arg6 : Memref sig .tc .vmem S4000x128 .f32) (harg6 : arg6.IsWhole)
    (x0 : Vec F S4000x512 .f32) (x1 : Vec F S512x256 .f32) (x2 : Vec F S1x256 .f32) (x3 : Vec F S256x128 .f32) (x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__mlp_kernel i arg1 harg1 arg2 harg2 arg3 harg3 arg4 harg4 arg5 harg5 arg6 harg6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of the pipeline on core `c`: the arrays as the region finds them; after the body at point `t` each
    input's buffer at its block and the output's at `out0_5` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => out0_5 (iblk m c 0 t) (iblk m c 1 t) (iblk m c 2 t) (iblk m c 3 t) (iblk m c 4 t)
  Φ _ := Pipeline.ΦA spec0 c
  q _ := fullShare
  owed _ := 0

/-- The proof data's arrays are the region-entry contents (the definition projected, the fold over the host lines never opened). -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = out0_5 (iblk m c 0 t) (iblk m c 1 t) (iblk m c 2 t) (iblk m c 3 t) (iblk m c 4 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' staging buffers hold their blocks, so `sound_kernel` applies; the invariant
    and the core's duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxRecDepth 262144 in
set_option backward.isDefEq.respectTransparency.types false in
/-- From any memory with zero counters, every weakly fair execution of @main on the TensorCores terminates, and every
    final state has every staged array at what the write-backs leave and every other unscoped buffer as the lines
    after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2]) (hsub := sfx_sub) (hfresh := sfx_fresh) (hkeep := sfx_keeps)
    (hmain := hmain m Variants.none) (hA := A_eq m) (hΦ := fun _ _ => rfl)

/-- The frame: every weakly fair execution terminates, nothing faults, the six argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frame

end
-- ==== Proof.MlpPayload.lean ====
/-
  The kernel's payload, the value stored to a block of 4000 rows, read at one index.

  The payload is `relu (x W1 + b1) W2 + b2` on a block: `x : [4000, 512]`, `W1 : [512, 256]`, `b1 : [1, 256]`,
  `W2 : [256, 128]`, `b2 : [1, 128]`. At the ideal values every format change is the identity, each product into the zero
  accumulator is the exact sum over the contraction coordinate, the bias row is read at row `0` for every row of the
  block, and the maximum against the zero splat is `max · 0`. So the element at `(p, q)` is
  `(∑ k, max ((∑ j, x (p, j) * W1 (j, k)) + b1 (0, k)) 0 * W2 (k, q)) + b2 (0, q)`.
-/
import proofs.«141418_j76948634075857_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.MlpPayload

open Cert.KernelIdeal Cert.KernelIdeal.Gen Idealize.ShloMosaic Idealize.ShloMosaic.ValueIdx

/-! ## The 1 product read at an index

Its dimension numbers contract the left operand's axis 1 with the right operand's axis 0 and have no batch axis, so at
the output index `(p, c)` and the contraction position `k` the operands are read at `(p, k)` and `(k, c)`. The four
coordinate equations below say so axis by axis; the contraction index set has one axis, of extent 512, and the sum over
it is re-indexed to the sum over `Fin 512`. -/

theorem lhs1_0 (i : S4000x256.Idx) (q : dot_S4000x512_S512x256_S4000x256_1_0_0_1_n_n.contr.Idx) :
    (dot_S4000x512_S512x256_S4000x256_1_0_0_1_n_n.lhsIdx i q 0).val = (i 0).val := by
  unfold DotDims.lhsIdx
  rw [dif_neg (show ¬(0 : Fin S4000x512.rank) ∈ dot_S4000x512_S512x256_S4000x256_1_0_0_1_n_n.lhsBatch by decide), dif_pos (show (0 : Fin S4000x512.rank) ∈ dot_S4000x512_S512x256_S4000x256_1_0_0_1_n_n.lhsNonContracting by decide)]
  rfl
theorem lhs1_1 (i : S4000x256.Idx) (q : dot_S4000x512_S512x256_S4000x256_1_0_0_1_n_n.contr.Idx) :
    (dot_S4000x512_S512x256_S4000x256_1_0_0_1_n_n.lhsIdx i q 1).val = (q ⟨0, by decide⟩).val :=
  dot_S4000x512_S512x256_S4000x256_1_0_0_1_n_n.lhsIdx_val_of_single rfl i q
theorem rhs1_0 (i : S4000x256.Idx) (q : dot_S4000x512_S512x256_S4000x256_1_0_0_1_n_n.contr.Idx) :
    (dot_S4000x512_S512x256_S4000x256_1_0_0_1_n_n.rhsIdx i q 0).val = (q ⟨0, by decide⟩).val :=
  dot_S4000x512_S512x256_S4000x256_1_0_0_1_n_n.rhsIdx_val_of_single rfl i q
theorem rhs1_1 (i : S4000x256.Idx) (q : dot_S4000x512_S512x256_S4000x256_1_0_0_1_n_n.contr.Idx) :
    (dot_S4000x512_S512x256_S4000x256_1_0_0_1_n_n.rhsIdx i q 1).val = (i 1).val := by
  unfold DotDims.rhsIdx
  rw [dif_neg (show ¬(1 : Fin S512x256.rank) ∈ dot_S4000x512_S512x256_S4000x256_1_0_0_1_n_n.rhsBatch by decide), dif_pos (show (1 : Fin S512x256.rank) ∈ dot_S4000x512_S512x256_S4000x256_1_0_0_1_n_n.rhsNonContracting by decide)]
  rfl

/-- The 1 product into the zero accumulator, at `(p, c)`: the sum over `k` of `a (p, k) * b (k, c)`. -/
theorem matmul1_apply (a : FVec Ideal S4000x512 .bf16) (b : FVec Ideal S512x256 .bf16) (p : Fin 4000) (c : Fin 256) :
    matmul dot_S4000x512_S512x256_S4000x256_1_0_0_1_n_n none a b (constant (F := Ideal) S4000x256 .f32 0x00000000#32) (ix2 p c)
      = ∑ k : Fin 512, a (ix2 p k) * b (ix2 k c) := by
  simp only [matmul]
  rw [Ideal.matmul_constant_zero_apply, ← Equiv.sum_comp (contrEquiv1 dot_S4000x512_S512x256_S4000x256_1_0_0_1_n_n 512 rfl rfl).symm]
  refine Finset.sum_congr rfl fun k _ => ?_
  have hk := contrEquiv1_symm_val dot_S4000x512_S512x256_S4000x256_1_0_0_1_n_n 512 rfl rfl k
  have el : dot_S4000x512_S512x256_S4000x256_1_0_0_1_n_n.lhsIdx (ix2 p c) ((contrEquiv1 dot_S4000x512_S512x256_S4000x256_1_0_0_1_n_n 512 rfl rfl).symm k) = ix2 p k := funext fun ax => Fin.ext (by
    match ax with
    | ⟨0, _⟩ => exact lhs1_0 _ _
    | ⟨1, _⟩ => exact (lhs1_1 _ _).trans hk)
  have er : dot_S4000x512_S512x256_S4000x256_1_0_0_1_n_n.rhsIdx (ix2 p c) ((contrEquiv1 dot_S4000x512_S512x256_S4000x256_1_0_0_1_n_n 512 rfl rfl).symm k) = ix2 k c := funext fun ax => Fin.ext (by
    match ax with
    | ⟨0, _⟩ => exact (rhs1_0 _ _).trans hk
    | ⟨1, _⟩ => exact rhs1_1 _ _)
  rw [el, er]

/-! ## The 2 product read at an index

Its dimension numbers contract the left operand's axis 1 with the right operand's axis 0 and have no batch axis, so at
the output index `(p, c)` and the contraction position `k` the operands are read at `(p, k)` and `(k, c)`. The four
coordinate equations below say so axis by axis; the contraction index set has one axis, of extent 256, and the sum over
it is re-indexed to the sum over `Fin 256`. -/

theorem lhs2_0 (i : S4000x128.Idx) (q : dot_S4000x256_S256x128_S4000x128_1_0_0_1_n_n.contr.Idx) :
    (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs2_1 (i : S4000x128.Idx) (q : dot_S4000x256_S256x128_S4000x128_1_0_0_1_n_n.contr.Idx) :
    (dot_S4000x256_S256x128_S4000x128_1_0_0_1_n_n.lhsIdx i q 1).val = (q ⟨0, by decide⟩).val :=
  dot_S4000x256_S256x128_S4000x128_1_0_0_1_n_n.lhsIdx_val_of_single rfl i q
theorem rhs2_0 (i : S4000x128.Idx) (q : dot_S4000x256_S256x128_S4000x128_1_0_0_1_n_n.contr.Idx) :
    (dot_S4000x256_S256x128_S4000x128_1_0_0_1_n_n.rhsIdx i q 0).val = (q ⟨0, by decide⟩).val :=
  dot_S4000x256_S256x128_S4000x128_1_0_0_1_n_n.rhsIdx_val_of_single rfl i q
theorem rhs2_1 (i : S4000x128.Idx) (q : dot_S4000x256_S256x128_S4000x128_1_0_0_1_n_n.contr.Idx) :
    (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- The 2 product into the zero accumulator, at `(p, c)`: the sum over `k` of `a (p, k) * b (k, c)`. -/
theorem matmul2_apply (a : FVec Ideal S4000x256 .bf16) (b : FVec Ideal S256x128 .bf16) (p : Fin 4000) (c : Fin 128) :
    matmul dot_S4000x256_S256x128_S4000x128_1_0_0_1_n_n none a b (constant (F := Ideal) S4000x128 .f32 0x00000000#32) (ix2 p c)
      = ∑ k : Fin 256, a (ix2 p k) * b (ix2 k c) := by
  simp only [matmul]
  rw [Ideal.matmul_constant_zero_apply, ← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p c) ((contrEquiv1 dot_S4000x256_S256x128_S4000x128_1_0_0_1_n_n 256 rfl rfl).symm k) = ix2 p k := funext fun ax => Fin.ext (by
    match ax with
    | ⟨0, _⟩ => exact lhs2_0 _ _
    | ⟨1, _⟩ => exact (lhs2_1 _ _).trans hk)
  have er : dot_S4000x256_S256x128_S4000x128_1_0_0_1_n_n.rhsIdx (ix2 p c) ((contrEquiv1 dot_S4000x256_S256x128_S4000x128_1_0_0_1_n_n 256 rfl rfl).symm k) = ix2 k c := funext fun ax => Fin.ext (by
    match ax with
    | ⟨0, _⟩ => exact (rhs2_0 _ _).trans hk
    | ⟨1, _⟩ => exact rhs2_1 _ _)
  rw [el, er]

/-! ## The payload at an index -/

/-- The payload at `(p, q)`. -/
theorem pay_apply (x0 : Vec Ideal S4000x512 .f32) (x1 : Vec Ideal S512x256 .f32) (x2 : Vec Ideal S1x256 .f32) (x3 : Vec Ideal S256x128 .f32) (x4 : Vec Ideal S1x128 .f32) (p : Fin 4000) (q : Fin 128) :
    k0_pay1 (F := Ideal) x0 x1 x2 x3 x4 (ix2 p q)
      = (∑ k : Fin 256, max ((∑ j : Fin 512, x0 (ix2 p j) * x1 (ix2 j k)) + x2 (ix2 (0 : Fin 1) k)) 0 * x3 (ix2 k q)) + x4 (ix2 (0 : Fin 1) q) := by
  unfold k0_pay1
  simp only [shapeCast_self]
  rw [addf_apply, matmul2_apply, broadcastTo_1b_ab_apply]
  refine congrArg (· + x4 (ix2 (0 : Fin 1) q)) (Finset.sum_congr rfl fun k _ => ?_)
  rw [truncf_apply, truncf_apply, maximumf_apply, addf_apply, matmul1_apply, broadcastTo_1b_ab_apply, broadcast_apply]
  simp only [truncf_apply, Ideal.ofBits_def, Ideal.ofBits_zero_f32]

end Cert.KernelIdeal.MlpPayload

end
-- ==== Proof.Propagate.lean ====
/-
  The propagation both programs apply to the MLP's output `h` (100000 rows of 32), as ONE function of `h` and the edge
  list `e` (two rows of 1600000 node numbers: sources, then targets).

  Every node gets a self loop: the source list and the target list are the edge list's two rows, each followed by the
  node numbers 0 … 99999 (1700000 entries each). A node's degree is the number of entries of the target list naming
  it (a sum of ones scattered to the targets); `dinv` is degree^(-1/2) where the degree is positive and 0 elsewhere; an
  edge's weight is `dinv` at its source times `dinv` at its target. A negative node number counts from the end
  (100000 is added to it) wherever a list is used to read a row. One hop sends each source row, times the edge's
  weight, to the edge's target, sums what arrives at each node, and blends: half of that sum plus half of the
  original `h`. The result is five hops, each restarting the blend from the original `h`.

  Nothing here is ever opened: the two programs agree because they apply this same function to equal MLP outputs.
-/
import proofs.«141418_j76948634075857_1_alg».proof.Proof.Gen.ReferenceIdeal

noncomputable section

namespace Cert.ReferenceIdeal.Propagate

open Cert.ReferenceIdeal Cert.ReferenceIdeal.Gen Idealize.ShloMosaic Idealize.ShloMosaic.TcCoe

variable {F : FTy → Type} [FloatOps F]

/-- Row `k` of the edge list followed by every node's self loop: the sources for `k = 0`, the targets for `k = 1`. -/
def sources (e : (⟨S2x1600000, .i32⟩ : BufTy).Contents (Elt F)) : (⟨S1700000, .i32⟩ : BufTy).Contents (Elt F) :=
  concatenate S1700000 0 [⟨S1600000, (shapeCast _ (extractStridedSlice S1x1600000 ![0, 0] (e) slices_S2x1600000_S1x1600000_0_0) shapeCasts_S1x1600000_S1600000)⟩, ⟨S100000, (iotaInDim S100000 32 0)⟩] concatenates_S1600000_S100000_S1700000_d0
def targets (e : (⟨S2x1600000, .i32⟩ : BufTy).Contents (Elt F)) : (⟨S1700000, .i32⟩ : BufTy).Contents (Elt F) :=
  concatenate S1700000 0 [⟨S1600000, (shapeCast _ (extractStridedSlice S1x1600000 ![1, 0] (e) slices_S2x1600000_S1x1600000_1_0) shapeCasts_S1x1600000_S1600000)⟩, ⟨S100000, (iotaInDim S100000 32 0)⟩] concatenates_S1600000_S100000_S1700000_d0

/-- A list of node numbers as read positions: a negative number counts from the end. -/
def wrapped (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v
/-- A list as a column of one-entry index vectors. -/
def column (v : (⟨S1700000, .i32⟩ : BufTy).Contents (Elt F)) : (⟨S1700000x1, .i32⟩ : BufTy).Contents (Elt F) :=
  broadcastInDim S1700000x1 ![0] bcast_S1700000_S1700000x1_0 v

/-- Each node's degree: ones summed at the targets. -/
def degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32))
    (column (F := F) (targets (F := F) e)) (broadcastInDim S1700000 ![] bcast_S_S1700000 (constant S_ .f32 0x3F800000#32))
/-- degree^(-1/2) where the degree is positive, 0 elsewhere. -/
def dinv (e : (⟨S2x1600000, .i32⟩ : BufTy).Contents (Elt F)) : (⟨S100000, .f32⟩ : BufTy).Contents (Elt F) :=
  select (cmpf .ogt (degree (F := F) e) (broadcastInDim S100000 ![] bcast_S_S100000 (constant S_ .f32 0x00000000#32)))
    (Host.powf (degree (F := F) e) (broadcastInDim S100000 ![] bcast_S_S100000 (constant S_ .f32 0xBF000000#32)))
    (broadcastInDim S100000 ![] bcast_S_S100000 (id (constant S_ .f32 0x00000000#32)))
/-- Each edge's weight, as a column, from the two lists and `dinv`: `dinv` at the source times `dinv` at the target. -/
def weightOf (src dst : (⟨S1700000, .i32⟩ : BufTy).Contents (Elt F)) (dv : (⟨S100000, .f32⟩ : BufTy).Contents (Elt F)) : (⟨S1700000x1, .f32⟩ : BufTy).Contents (Elt F) :=
  broadcastInDim S1700000x1 ![0] bcast_S1700000_S1700000x1_0
    (mulf (Host.gather gather_S100000_S1700000x1_S1700000_n_0_n_n_0_1_1 dv (column (F := F) (wrapped (F := F) src)))
      (Host.gather gather_S100000_S1700000x1_S1700000_n_0_n_n_0_1_1 dv (column (F := F) (wrapped (F := F) dst))))

/-- One hop from `h` along the edges `src → dst` with weights `w`, blended with the original `h0`. -/
def hopOf (src dst : (⟨S1700000, .i32⟩ : BufTy).Contents (Elt F)) (w : (⟨S1700000x1, .f32⟩ : BufTy).Contents (Elt F)) (h0 h : (⟨S100000x32, .f32⟩ : BufTy).Contents (Elt F)) : (⟨S100000x32, .f32⟩ : BufTy).Contents (Elt F) :=
  addf
    (mulf (broadcastInDim S100000x32 ![] bcast_S_S100000x32 (constant S_ .f32 0x3F000000#32))
      (Host.scatterAdd scatter_S100000x32_S1700000x1_S1700000x32_1_0_0_1 (broadcastInDim S100000x32 ![] bcast_S_S100000x32 (constant S_ .f32 0x00000000#32))
        (column (F := F) dst)
        (mulf (Host.gather gather_S100000x32_S1700000x1_S1700000x32_1_0_n_n_0_1_132 h (column (F := F) (wrapped (F := F) src)))
          (broadcastInDim S1700000x32 ![0, 1] bcast_S1700000x1_S1700000x32_0_1 w))))
    (mulf (broadcastInDim S100000x32 ![] bcast_S_S100000x32 (constant S_ .f32 0x3F000000#32)) h0)

/-- Five hops along `src → dst`, the weights from `dinv`. -/
def propagateOf (src dst : (⟨S1700000, .i32⟩ : BufTy).Contents (Elt F)) (dv : (⟨S100000, .f32⟩ : BufTy).Contents (Elt F)) (h : (⟨S100000x32, .f32⟩ : BufTy).Contents (Elt F)) : (⟨S100000x32, .f32⟩ : BufTy).Contents (Elt F) :=
  hopOf (F := F) src dst (weightOf (F := F) src dst dv) h
    (hopOf (F := F) src dst (weightOf (F := F) src dst dv) h
      (hopOf (F := F) src dst (weightOf (F := F) src dst dv) h
        (hopOf (F := F) src dst (weightOf (F := F) src dst dv) h
          (hopOf (F := F) src dst (weightOf (F := F) src dst dv) h h))))

/-- The same from the edge list. -/
def weight (e : (⟨S2x1600000, .i32⟩ : BufTy).Contents (Elt F)) : (⟨S1700000x1, .f32⟩ : BufTy).Contents (Elt F) :=
  weightOf (F := F) (sources (F := F) e) (targets (F := F) e) (dinv (F := F) e)
def hop (e : (⟨S2x1600000, .i32⟩ : BufTy).Contents (Elt F)) (h0 h : (⟨S100000x32, .f32⟩ : BufTy).Contents (Elt F)) : (⟨S100000x32, .f32⟩ : BufTy).Contents (Elt F) :=
  hopOf (F := F) (sources (F := F) e) (targets (F := F) e) (weight (F := F) e) h0 h
def propagate (e : (⟨S2x1600000, .i32⟩ : BufTy).Contents (Elt F)) (h : (⟨S100000x32, .f32⟩ : BufTy).Contents (Elt F)) : (⟨S100000x32, .f32⟩ : BufTy).Contents (Elt F) :=
  propagateOf (F := F) (sources (F := F) e) (targets (F := F) e) (dinv (F := F) e) h

end Cert.ReferenceIdeal.Propagate

end
-- ==== Proof.KernelValue.lean ====
/-
  What the idealized kernel program computes, at the exact instance (floats are extended reals, operations exact).

  The region writes back, at grid point `t`, rows `4000 t … 4000 t + 3999` of the 100000 × 128 array; the 25 blocks
  tile it, and entry (r, q) of block `t` is the body's value at (r − 4000 t, q):
      Σ_k max(Σ_j x[r, j] · W1[j, k] + b1[k], 0) · W2pad[k, q] + b2pad[q],
  the two matrix products plain sums since the accumulators are zero and a change of float format is the identity.
  So the array ends as ONE function of the region-entry arrays (`mlpPad`), and the host lines after the region turn
  its first 32 columns into the result by the propagation (Proof/Propagate.lean), which is never opened.
-/
import proofs.«141418_j76948634075857_1_alg».proof.Proof.FrameIdeal
import proofs.«141418_j76948634075857_1_alg».proof.Proof.MlpPayload
import proofs.«141418_j76948634075857_1_alg».proof.Proof.Propagate
import Idealize.ShloMosaic.Lib.Pipeline.Value
import Idealize.ShloMosaic.Lib.ValueIdx
import Idealize.ShloMosaic.Lib.StableHlo.Run

set_option maxRecDepth 16384

noncomputable section

namespace Cert.KernelIdeal.KValue

open Cert.KernelIdeal Cert.KernelIdeal.Gen Cert.KernelIdeal.Frame
open Idealize.ShloMosaic Idealize.ShloMosaic.TcCoe Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-! ## The host lines after the region -/

open Cert.ReferenceIdeal.Propagate in
set_option maxRecDepth 200000 in
set_option maxHeartbeats 4000000 in
/-- The last 130 host lines, over ANY contents of the buffers they start from: they read the two endpoint lists, the
    inverse square roots of the degrees and the MLP's 32 columns, and compose to the five hops over those four. -/
theorem hops_eq (W1 : Valuation τ sig (Elt Ideal)) :
    StableHlo.after hostOps1_2 W1 (Proc.devRef .tc main_v122)
      = propagateOf (F := Ideal) (W1 (Proc.devRef .tc main_v9)) (W1 (Proc.devRef .tc main_v12)) (W1 (Proc.devRef .tc main_v21)) (W1 (Proc.devRef .tc main_v5)) := by
  simp only [hostOps1_2]
  after_results_simp
  rfl

/-! The three lines of the `where` between them: the result is the selection, the four other buffers are untouched. -/

set_option maxRecDepth 200000 in
theorem call_eq (W0 : Valuation τ sig (Elt Ideal)) :
    StableHlo.after hostOps1_1 W0 (Proc.devRef .tc main_v21)
      = select (W0 (Proc.devRef .tc main_v18) : S100000.Idx → BitVec 1) (W0 (Proc.devRef .tc main_v20) : S100000.Idx → EReal)
          (broadcastInDim S100000 ![] bcast_S_S100000 (id (W0 (Proc.devRef .tc main_cst_4) : S_.Idx → EReal))) := by
  simp only [hostOps1_1, StableHlo.TRef.unary, StableHlo.TRef.ternary]
  after_results_simp <;> rfl
set_option maxRecDepth 200000 in
theorem call_keeps_v9 (W0 : Valuation τ sig (Elt Ideal)) :
    StableHlo.after hostOps1_1 W0 (Proc.devRef .tc main_v9) = W0 (Proc.devRef .tc main_v9) := by
  simp only [hostOps1_1, StableHlo.TRef.unary, StableHlo.TRef.ternary]
  after_results_simp <;> rfl
set_option maxRecDepth 200000 in
theorem call_keeps_v12 (W0 : Valuation τ sig (Elt Ideal)) :
    StableHlo.after hostOps1_1 W0 (Proc.devRef .tc main_v12) = W0 (Proc.devRef .tc main_v12) := by
  simp only [hostOps1_1, StableHlo.TRef.unary, StableHlo.TRef.ternary]
  after_results_simp <;> rfl
set_option maxRecDepth 200000 in
theorem call_keeps_v5 (W0 : Valuation τ sig (Elt Ideal)) :
    StableHlo.after hostOps1_1 W0 (Proc.devRef .tc main_v5) = W0 (Proc.devRef .tc main_v5) := by
  simp only [hostOps1_1, StableHlo.TRef.unary, StableHlo.TRef.ternary]
  after_results_simp <;> rfl

/-! The first 21 host lines after the region: the two endpoint lists from the edge list, the slice of the region's
    array to its first 32 columns, and the three operands of the `where` — whether the degree is positive, the
    degree to the power −1/2, and zero. -/

open Cert.ReferenceIdeal.Propagate in
set_option maxRecDepth 200000 in
theorem s0_sources (W : Valuation τ sig (Elt Ideal)) :
    StableHlo.after hostOps1 W (Proc.devRef .tc main_v9) = sources (F := Ideal) (W (Proc.devRef .tc main_arg5)) := by
  simp only [hostOps1]
  after_results_simp <;> rfl
open Cert.ReferenceIdeal.Propagate in
set_option maxRecDepth 200000 in
theorem s0_targets (W : Valuation τ sig (Elt Ideal)) :
    StableHlo.after hostOps1 W (Proc.devRef .tc main_v12) = targets (F := Ideal) (W (Proc.devRef .tc main_arg5)) := by
  simp only [hostOps1]
  after_results_simp <;> rfl
set_option maxRecDepth 200000 in
theorem s0_slice (W : Valuation τ sig (Elt Ideal)) :
    StableHlo.after hostOps1 W (Proc.devRef .tc main_v5)
      = extractStridedSlice S100000x32 ![0, 0] (W (Proc.devRef .tc main_v4)) slices_S100000x128_S100000x32_0_0 := by
  simp only [hostOps1]
  after_results_simp <;> rfl
open Cert.ReferenceIdeal.Propagate in
set_option maxRecDepth 200000 in
theorem s0_positive (W : Valuation τ sig (Elt Ideal)) :
    StableHlo.after hostOps1 W (Proc.devRef .tc main_v18)
      = cmpf .ogt (degree (F := Ideal) (W (Proc.devRef .tc main_arg5))) (broadcastInDim S100000 ![] bcast_S_S100000 (constant (F := Ideal) S_ .f32 0x00000000#32)) := by
  simp only [hostOps1]
  after_results_simp <;> rfl
open Cert.ReferenceIdeal.Propagate in
set_option maxRecDepth 200000 in
theorem s0_power (W : Valuation τ sig (Elt Ideal)) :
    StableHlo.after hostOps1 W (Proc.devRef .tc main_v20)
      = Host.powf (degree (F := Ideal) (W (Proc.devRef .tc main_arg5))) (broadcastInDim S100000 ![] bcast_S_S100000 (constant (F := Ideal) S_ .f32 0xBF000000#32)) := by
  simp only [hostOps1]
  after_results_simp <;> rfl
set_option maxRecDepth 200000 in
theorem s0_zero (W : Valuation τ sig (Elt Ideal)) :
    StableHlo.after hostOps1 W (Proc.devRef .tc main_cst_4) = constant (F := Ideal) S_ .f32 0x00000000#32 := by
  simp only [hostOps1]
  after_results_simp <;> rfl

/-- The result buffer after all the host lines that follow the region, over any contents of the buffers: the
    propagation of the edge list and of the first 32 columns of the region's output array. -/
theorem tail_eq (W : Valuation τ sig (Elt Ideal)) :
    StableHlo.after (List.flatten [hostOps1, hostOps1_1, hostOps1_2]) W (Proc.devRef .tc main_v122)
      = Cert.ReferenceIdeal.Propagate.propagate (F := Ideal) (W (Proc.devRef .tc main_arg5))
          (extractStridedSlice S100000x32 ![0, 0] (W (Proc.devRef .tc main_v4)) slices_S100000x128_S100000x32_0_0) := by
  have e : List.flatten [(hostOps1 : List (HloOp τ sig (Elt Ideal))), hostOps1_1, hostOps1_2] = hostOps1 ++ (hostOps1_1 ++ hostOps1_2) := by
    simp only [List.flatten_cons, List.flatten_nil, List.append_nil]
  rw [e, StableHlo.after_append, StableHlo.after_append, hops_eq, call_keeps_v9, call_keeps_v12, call_keeps_v5, call_eq,
    s0_sources, s0_targets, s0_slice, s0_positive, s0_power, s0_zero]
  rfl

/-! ## The blocks the body is handed -/

theorem hz : (![0, 0] : Fin 2 → Nat) = fun _ => 0 := funext fun a => by fin_cases a <;> rfl

/-- The printed index maps, decided over the grid: the input matrix's window and the output's move one block of
    rows per point; the other four windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input matrix's block at point `t` is rows `4000 t … 4000 t + 3999` of the matrix. -/
theorem iblk0_apply (c : Dev nD) (t : Fin cfg0.N) (y : S4000x512.Idx) (k : S100000x512.Idx)
    (hk0 : (k 0).val = 4000 * t.val + (y 0).val) (hk1 : (k 1).val = (y 1).val) :
    (iblk m c 0 t : Vec Ideal S4000x512 .f32) y = (V m c main_arg0 : S100000x512.Idx → EReal) k := by
  obtain ⟨h0, h1, -⟩ := idx_facts t
  unfold iblk
  rw [View.read_apply]
  refine congrArg (V m c main_arg0 : S100000x512.Idx → EReal) (funext fun a => Fin.ext ?_)
  match a with
  | ⟨0, _⟩ => show win0_0.index t 0 * 4000 + 1 * (y 0).val = (k 0).val; rw [h0, hk0]; omega
  | ⟨1, _⟩ => show win0_0.index t 1 * 512 + 1 * (y 1).val = (k 1).val; rw [h1, hk1]; omega

/-- The other four blocks are their whole arrays, at every point. -/
theorem iblk1_apply (c : Dev nD) (t : Fin cfg0.N) (y : S512x256.Idx) :
    (iblk m c 1 t : Vec Ideal S512x256 .f32) y = (V m c main_arg1 : S512x256.Idx → EReal) y := by
  obtain ⟨-, -, h0, h1, -⟩ := idx_facts t
  unfold iblk
  rw [View.read_apply]
  refine congrArg (V m c main_arg1 : S512x256.Idx → EReal) (funext fun a => Fin.ext ?_)
  match a with
  | ⟨0, _⟩ => show win0_1.index t 0 * 512 + 1 * (y 0).val = (y 0).val; rw [h0]; omega
  | ⟨1, _⟩ => show win0_1.index t 1 * 256 + 1 * (y 1).val = (y 1).val; rw [h1]; omega
theorem iblk2_apply (c : Dev nD) (t : Fin cfg0.N) (y : S1x256.Idx) :
    (iblk m c 2 t : Vec Ideal S1x256 .f32) y = (V m c main_v0 : S1x256.Idx → EReal) y := by
  obtain ⟨-, -, -, -, h0, h1, -⟩ := idx_facts t
  unfold iblk
  rw [View.read_apply]
  refine congrArg (V m c main_v0 : S1x256.Idx → EReal) (funext fun a => Fin.ext ?_)
  match a with
  | ⟨0, _⟩ => show win0_2.index t 0 * 1 + 1 * (y 0).val = (y 0).val; rw [h0]; omega
  | ⟨1, _⟩ => show win0_2.index t 1 * 256 + 1 * (y 1).val = (y 1).val; rw [h1]; omega
theorem iblk3_apply (c : Dev nD) (t : Fin cfg0.N) (y : S256x128.Idx) :
    (iblk m c 3 t : Vec Ideal S256x128 .f32) y = (V m c main_v1 : S256x128.Idx → EReal) y := by
  obtain ⟨-, -, -, -, -, -, h0, h1, -⟩ := idx_facts t
  unfold iblk
  rw [View.read_apply]
  refine congrArg (V m c main_v1 : S256x128.Idx → EReal) (funext fun a => Fin.ext ?_)
  match a with
  | ⟨0, _⟩ => show win0_3.index t 0 * 256 + 1 * (y 0).val = (y 0).val; rw [h0]; omega
  | ⟨1, _⟩ => show win0_3.index t 1 * 128 + 1 * (y 1).val = (y 1).val; rw [h1]; omega
theorem iblk4_apply (c : Dev nD) (t : Fin cfg0.N) (y : S1x128.Idx) :
    (iblk m c 4 t : Vec Ideal S1x128 .f32) y = (V m c main_v3 : S1x128.Idx → EReal) y := by
  obtain ⟨-, -, -, -, -, -, -, -, h0, h1, -⟩ := idx_facts t
  unfold iblk
  rw [View.read_apply]
  refine congrArg (V m c main_v3 : S1x128.Idx → EReal) (funext fun a => Fin.ext ?_)
  match a with
  | ⟨0, _⟩ => show win0_4.index t 0 * 1 + 1 * (y 0).val = (y 0).val; rw [h0]; omega
  | ⟨1, _⟩ => show win0_4.index t 1 * 128 + 1 * (y 1).val = (y 1).val; rw [h1]; omega

/-! ## The region's output array as one function of the region-entry arrays -/

/-- Entry (r, q) of the padded MLP output, from the input matrix, the first weight matrix, the first bias as a
    row, the second weight matrix and the second bias padded to 128 columns. -/
def mlpPad (X : S100000x512.Idx → EReal) (W1 : S512x256.Idx → EReal) (B1 : S1x256.Idx → EReal) (W2 : S256x128.Idx → EReal)
    (B2 : S1x128.Idx → EReal) : S100000x128.Idx → EReal :=
  fun i => (∑ k : Fin 256, max ((∑ j : Fin 512, X (ix2 (i 0 : Fin 100000) j) * W1 (ix2 j k)) + B1 (ix2 (0 : Fin 1) k)) 0
      * W2 (ix2 k (i 1 : Fin 128))) + B2 (ix2 (0 : Fin 1) (i 1 : Fin 128))

/-- What point `t` writes back is block `t` of `mlpPad` of the region-entry arrays. -/
theorem flushed_eq (c : Dev nD) (t : Fin cfg0.N) (hf : (cfg0.win 5).flush t = true) :
    (dats m 0 c).flushed 5 t = ((cfg0.win 5).blk t).view.read (Elt Ideal)
      (mlpPad (V m c main_arg0) (V m c main_arg1) (V m c main_v0) (V m c main_v1) (V m c main_v3)) := by
  show (cfg0.win 5).cut (grid0.coords t) ((dats m 0 c).after 5 t) = _
  rw [after0_5]
  unfold out0_5
  rw [View.canon_unit_zero hz]
  simp only [View.ld_unit_zero (S := S4000x512) hz, View.ld_unit_zero (S := S512x256) hz, View.ld_unit_zero (S := S1x256) hz,
    View.ld_unit_zero (S := S256x128) hz, View.ld_unit_zero (S := S1x128) hz]
  funext y
  obtain ⟨p, q, rfl⟩ : ∃ (p : Fin 4000) (q : Fin 128), y = ix2 p q := ⟨y 0, y 1, eq_ix2 y⟩
  refine (Cert.KernelIdeal.MlpPayload.pay_apply _ _ _ _ _ p q).trans ?_
  rw [View.read_apply]
  show _ = mlpPad (V m c main_arg0) (V m c main_arg1) (V m c main_v0) (V m c main_v1) (V m c main_v3) (((cfg0.win 5).blk t).view.emb (ix2 p q))
  obtain ⟨-, -, -, -, -, -, -, -, -, -, h0, h1⟩ := idx_facts t
  have e0 : ((((cfg0.win 5).blk t).view.emb (ix2 p q)) 0).val = 4000 * t.val + p.val := by
    show win0_5.index t 0 * 4000 + 1 * p.val = _; rw [h0]; omega
  have e1 : ((((cfg0.win 5).blk t).view.emb (ix2 p q)) 1).val = q.val := by
    show win0_5.index t 1 * 128 + 1 * q.val = _; rw [h1]; omega
  unfold mlpPad
  refine congrArg₂ (· + ·) (Finset.sum_congr rfl fun k _ => congrArg₂ (· * ·) (congrArg (fun z : EReal => max z 0)
    (congrArg₂ (· + ·) (Finset.sum_congr rfl fun j _ => congrArg₂ (· * ·) ?_ ?_) ?_)) ?_) ?_
  · exact iblk0_apply m c t (ix2 p j) _ e0 rfl
  · exact iblk1_apply m c t (ix2 j k)
  · exact iblk2_apply m c t (ix2 0 k)
  · exact (iblk3_apply m c t (ix2 k q)).trans (congrArg (V m c main_v1 : S256x128.Idx → EReal) (congrArg (ix2 k) (Fin.ext e1.symm)))
  · exact (iblk4_apply m c t (ix2 0 q)).trans (congrArg (V m c main_v3 : S1x128.Idx → EReal) (congrArg (ix2 (0 : Fin 1)) (Fin.ext e1.symm)))

/-- An index of the output array is in point `t`'s block iff each coordinate is in the block's range on its axis. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v4).slice (win0_5.rect t)).set ↔ _
  rw [View.set_slice_whole, Rect.mem_set_unit]
  exact Iff.rfl

/-- Row `r` of the output array is written back at point `r / 4000`: the 25 blocks cover the array. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  have ht : (i 0).val / 4000 < cfg0.N := by rw [hN]; omega
  refine ⟨⟨(i 0).val / 4000, ht⟩, flush0_5 _, ?_⟩
  rw [mem_blk]
  obtain ⟨-, -, -, -, -, -, -, -, -, -, h0, h1⟩ := idx_facts ⟨(i 0).val / 4000, ht⟩
  intro a
  match a with
  | ⟨0, _⟩ =>
    show win0_5.index ⟨(i 0).val / 4000, ht⟩ (0 : Fin 2) * 4000 ≤ (i 0).val ∧ (i 0).val < win0_5.index ⟨(i 0).val / 4000, ht⟩ (0 : Fin 2) * 4000 + 4000
    rw [h0]; show (i 0).val / 4000 * 4000 ≤ (i 0).val ∧ (i 0).val < (i 0).val / 4000 * 4000 + 4000; omega
  | ⟨1, _⟩ =>
    show win0_5.index ⟨(i 0).val / 4000, ht⟩ (1 : Fin 2) * 128 ≤ (i 1).val ∧ (i 1).val < win0_5.index ⟨(i 0).val / 4000, ht⟩ (1 : Fin 2) * 128 + 128
    rw [h1]; omega

/-- The region's output array after the run is `mlpPad` of the region-entry arrays. -/
theorem final (c : Dev nD) : (dats m 0 c).arrAt 5 cfg0.N
    = mlpPad (V m c main_arg0) (V m c main_arg1) (V m c main_v0) (V m c main_v1) (V m c main_v3) :=
  (dats m 0 c).arrAt_eq_of_cover 5 _ (flushed_eq m c) cover

/-! ## The arrays the host lines before the region compute -/

/-- The first bias as a row. -/
theorem V_v0 (c : Dev nD) : (V m c main_v0 : S1x256.Idx → EReal)
    = shapeCast S1x256 (m ((c : Thread nD τ).loc main_arg2) : S256.Idx → EReal) shapeCasts_S256_S1x256 := by
  dsimp only [V, V0]
  simp only [hostOps0, hostOps0_1, hostOps0_2, hostOps0_3, hostOps0_4, StableHlo.TRef.unary, StableHlo.TRef.binary, List.flatten_cons, List.flatten_nil, List.append_nil, List.cons_append, List.nil_append]
  after_results; rfl
/-- The second weight matrix padded with 96 further columns. -/
theorem V_v1 (c : Dev nD) : (V m c main_v1 : S256x128.Idx → EReal)
    = pad S256x128 ![0, 0] ![0, 96] ![0, 0] (m ((c : Thread nD τ).loc main_arg3) : S256x32.Idx → EReal)
        (sitofp (F := Ideal) .f32 (constantI S_ 32 0#32)) pads_S256x32_S256x128_000_0960 h_S_ := by
  dsimp only [V, V0]
  simp only [hostOps0, hostOps0_1, hostOps0_2, hostOps0_3, hostOps0_4, StableHlo.TRef.unary, StableHlo.TRef.binary, List.flatten_cons, List.flatten_nil, List.append_nil, List.cons_append, List.nil_append]
  after_results; rfl
/-- The second bias padded with 96 further entries, as a row. -/
theorem V_v3 (c : Dev nD) : (V m c main_v3 : S1x128.Idx → EReal)
    = shapeCast S1x128 (pad S128 ![0] ![96] ![0] (m ((c : Thread nD τ).loc main_arg4) : S32.Idx → EReal)
        (sitofp (F := Ideal) .f32 (constantI S_ 32 0#32)) pads_S32_S128_0960 h_S_) shapeCasts_S128_S1x128 := by
  dsimp only [V, V0]
  simp only [hostOps0, hostOps0_1, hostOps0_2, hostOps0_3, hostOps0_4, StableHlo.TRef.unary, StableHlo.TRef.binary, List.flatten_cons, List.flatten_nil, List.append_nil, List.cons_append, List.nil_append]
  after_results; rfl

/-! ## The kernel's run, read -/

/-- The result buffer after the whole program: the propagation of the edge list and of the first 32 columns of
    `mlpPad` of the region-entry arrays. -/
theorem result_eq (c : Dev nD) :
    Pipeline.afterTail₀ cfgs (dats m) 0 (V0 m) [hostOps1, hostOps1_1, hostOps1_2] c main_v122
      = Cert.ReferenceIdeal.Propagate.propagate (F := Ideal) (m ((c : Thread nD τ).loc main_arg5))
          (extractStridedSlice S100000x32 ![0, 0] (mlpPad (V m c main_arg0) (V m c main_arg1) (V m c main_v0) (V m c main_v1) (V m c main_v3))
            slices_S100000x128_S100000x32_0_0) := by
  unfold Pipeline.afterTail₀
  rw [tail_eq]
  have h4 : Pipeline.withArrays (cfgs 0).spec c (V0 m c) (fun w => (dats m 0 c).arrAt w (cfgs 0).N) (Proc.devRef .tc main_v4)
      = mlpPad (V m c main_arg0) (V m c main_arg1) (V m c main_v0) (V m c main_v1) (V m c main_v3) :=
    (Pipeline.withArrays_arr spec0 launch0.win.arr_inj c _ _ 5).trans (final m c)
  have h5 : Pipeline.withArrays (cfgs 0).spec c (V0 m c) (fun w => (dats m 0 c).arrAt w (cfgs 0).N) (Proc.devRef .tc main_arg5)
      = m ((c : Thread nD τ).loc main_arg5) :=
    (Pipeline.withArrays_of_ne _ c (V0 m c) _ main_arg5 (by decide)).trans (V_arg m c main_arg5 (by decide))
  rw [h4, h5]

/-- Every weakly fair execution of the idealized kernel program terminates with its result at that propagation and
    the arguments unchanged. -/
theorem run : θ_run defs (onTc (τ := τ) (main (F := Ideal))) ⟨m, fun _ => 0, ρ⟩ fun r => ∀ c : Dev nD,
      r.2.mem ((c.tc : Thread nD τ).loc main_v122)
          = Cert.ReferenceIdeal.Propagate.propagate (F := Ideal) (m ((c.tc : Thread nD τ).loc main_arg5))
              (extractStridedSlice S100000x32 ![0, 0] (mlpPad (V m c main_arg0) (V m c main_arg1) (V m c main_v0) (V m c main_v1) (V m c main_v3))
                slices_S100000x128_S100000x32_0_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨
      ((h c).2 main_v122 (Pipeline.mem_restRefs_of main_v122 (by decide) (by decide))).trans (result_eq m c),
      ((h c).1 0).trans (((dats m 0 c).arrAt_in 0 rfl _).trans ((A_eq m c 0).trans (V_arg m c main_arg0 (by decide)))),
      ((h c).1 1).trans (((dats m 0 c).arrAt_in 1 rfl _).trans ((A_eq m c 1).trans (V_arg m c main_arg1 (by decide)))),
      ((h c).2 main_arg2 (Pipeline.mem_restRefs_of main_arg2 (by decide) (by decide))).trans (W_arg m (dats m) c main_arg2 (by decide) (by decide)),
      ((h c).2 main_arg3 (Pipeline.mem_restRefs_of main_arg3 (by decide) (by decide))).trans (W_arg m (dats m) c main_arg3 (by decide) (by decide)),
      ((h c).2 main_arg4 (Pipeline.mem_restRefs_of main_arg4 (by decide) (by decide))).trans (W_arg m (dats m) c main_arg4 (by decide) (by decide)),
      ((h c).2 main_arg5 (Pipeline.mem_restRefs_of main_arg5 (by decide) (by decide))).trans (W_arg m (dats m) c main_arg5 (by decide) (by decide))⟩)
    (run_main m ρ)

end Cert.KernelIdeal.KValue

end
-- ==== Proof.RefValue.lean ====
/-
  The reference program's result as the propagation of its MLP output.

  The reference computes `h = relu(x W1 + b1) W2 + b2` on the host and then applies the propagation (Proof/Propagate.lean)
  to `h` and the edge list. Read one operation at a time, its last stage is literally that: every line after the MLP's
  last is a line of the propagation, with the MLP's output and the edge list where `propagate` has its two arguments.
  So every weakly fair execution of the reference ends with its result at `propagate e h`, the arguments unchanged.
-/
import proofs.«141418_j76948634075857_1_alg».proof.Proof.RefRead
import proofs.«141418_j76948634075857_1_alg».proof.Proof.Propagate

noncomputable section

namespace Cert.ReferenceIdeal.RefValue

open Cert.ReferenceIdeal Cert.ReferenceIdeal.Gen Cert.ReferenceIdeal.ReadP Cert.ReferenceIdeal.Propagate
open Idealize.ShloMosaic Idealize.ShloMosaic.TcCoe Idealize.SL.Sem

variable {F : FTy → Type} [FloatOps F]

/-- The endpoint lists, the degree, its inverse square root and the edge weights, as the reference computes them. -/
theorem sources_eq (x5 : (⟨S2x1600000, .i32⟩ : BufTy).Contents (Elt F)) : val_main_v12 (F := F) x5 = sources (F := F) x5 := rfl
theorem targets_eq (x5 : (⟨S2x1600000, .i32⟩ : BufTy).Contents (Elt F)) : val_main_v15 (F := F) x5 = targets (F := F) x5 := rfl
theorem degree_eq (x5 : (⟨S2x1600000, .i32⟩ : BufTy).Contents (Elt F)) : val_main_v19 (F := F) x5 = degree (F := F) x5 := rfl
theorem dinv_eq (x5 : (⟨S2x1600000, .i32⟩ : BufTy).Contents (Elt F)) : val_main_v24 (F := F) x5 = dinv (F := F) x5 := rfl
theorem weight_eq (x5 : (⟨S2x1600000, .i32⟩ : BufTy).Contents (Elt F)) : val_main_v40 (F := F) x5 = weight (F := F) x5 := rfl

/-- The first hop. -/
theorem hop1_eq (x0 : (⟨S100000x512, .f32⟩ : BufTy).Contents (Elt F)) (x1 : (⟨S512x256, .f32⟩ : BufTy).Contents (Elt F)) (x2 : (⟨S256, .f32⟩ : BufTy).Contents (Elt F)) (x3 : (⟨S256x32, .f32⟩ : BufTy).Contents (Elt F)) (x4 : (⟨S32, .f32⟩ : BufTy).Contents (Elt F)) (x5 : (⟨S2x1600000, .i32⟩ : BufTy).Contents (Elt F)) :
    val_main_v57 (F := F) x0 x1 x2 x3 x4 x5 = hop (F := F) x5 (val_main_v8 (F := F) x0 x1 x2 x3 x4) (val_main_v8 (F := F) x0 x1 x2 x3 x4) := rfl

/-- The reference's result is the propagation of its MLP output. -/
theorem result_eq_propagate (x0 : (⟨S100000x512, .f32⟩ : BufTy).Contents (Elt F)) (x1 : (⟨S512x256, .f32⟩ : BufTy).Contents (Elt F)) (x2 : (⟨S256, .f32⟩ : BufTy).Contents (Elt F)) (x3 : (⟨S256x32, .f32⟩ : BufTy).Contents (Elt F)) (x4 : (⟨S32, .f32⟩ : BufTy).Contents (Elt F)) (x5 : (⟨S2x1600000, .i32⟩ : BufTy).Contents (Elt F)) :
    val_main_v125 (F := F) x0 x1 x2 x3 x4 x5 = propagate (F := F) x5 (val_main_v8 (F := F) x0 x1 x2 x3 x4) := rfl

/-- Every weakly fair execution of the reference terminates with its result at the propagation of its MLP output
    and the edge list, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v125)
          = propagate (F := F) (m ((c.tc : Thread nD τ).loc main_arg5))
              (val_main_v8 (F := F) (m ((c.tc : Thread nD τ).loc main_arg0)) (m ((c.tc : Thread nD τ).loc main_arg1)) (m ((c.tc : Thread nD τ).loc main_arg2))
                (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((val_main_v125_eq m c).trans (result_eq_propagate _ _ _ _ _ _)), (h c).2⟩)
    (Cert.ReferenceIdeal.ValueP.run (F := F) m ρ)

end Cert.ReferenceIdeal.RefValue

end
-- ==== Proof.MlpRef.lean ====
/-
  The reference's dense part read at one index.

  On the host the reference computes `relu (x W1 + b1) W2 + b2` over all 100000 rows: `x : [100000, 512]`,
  `W1 : [512, 256]`, `b1 : [256]`, `W2 : [256, 32]`, `b2 : [32]`. Each bias is first made a row (`[256] → [1, 256]`) and the
  row repeated for every row of the result; `relu` is the maximum against a zero scalar repeated at every index. At the
  ideal values each `dot_general` is the exact sum over the contraction coordinate, so the element at `(r, q)` is
  `(∑ k, max ((∑ j, x (r, j) * W1 (j, k)) + b1 k) 0 * W2 (k, q)) + b2 q`.
-/
import proofs.«141418_j76948634075857_1_alg».proof.Proof.RefRead
import Idealize.ShloMosaic.PureOps.Ideal
import Idealize.ShloMosaic.PureOps.Ideal.Laws
import Idealize.ShloMosaic.Lib.ValueIdx

noncomputable section

namespace Cert.ReferenceIdeal.MlpRef

open Cert.ReferenceIdeal Cert.ReferenceIdeal.Gen Cert.ReferenceIdeal.ReadP Idealize.ShloMosaic Idealize.ShloMosaic.ValueIdx

/-! ## The composed index maps are the coordinate constructors

The bias of the first layer at `(r, k)` is read through two broadcasts, at `k`; the first product's operands at the
output index `(r, k)` and contraction position `j` are read at `(r, j)` and `(j, k)`; likewise for the second layer. -/

theorem bias1_idx (r : Fin 100000) (k : Fin 256) : idx_main_v1 (idx_main_v2 (ix2 r k)) = ix1 k :=
  funext fun a => Fin.ext (by match a with | ⟨0, _⟩ => rfl)
theorem lhs1_idx (r : Fin 100000) (k : Fin 256) (j : Fin 512) : lidx_main_v0 (ix2 r k) j = ix2 r j :=
  funext fun a => Fin.ext (by match a with | ⟨0, _⟩ => rfl | ⟨1, _⟩ => rfl)
theorem rhs1_idx (r : Fin 100000) (k : Fin 256) (j : Fin 512) : ridx_main_v0 (ix2 r k) j = ix2 j k :=
  funext fun a => Fin.ext (by match a with | ⟨0, _⟩ => rfl | ⟨1, _⟩ => rfl)
theorem bias2_idx (r : Fin 100000) (q : Fin 32) : idx_main_v6 (idx_main_v7 (ix2 r q)) = ix1 q :=
  funext fun a => Fin.ext (by match a with | ⟨0, _⟩ => rfl)
theorem lhs2_idx (r : Fin 100000) (q : Fin 32) (k : Fin 256) : lidx_main_v5 (ix2 r q) k = ix2 r k :=
  funext fun a => Fin.ext (by match a with | ⟨0, _⟩ => rfl | ⟨1, _⟩ => rfl)
theorem rhs2_idx (r : Fin 100000) (q : Fin 32) (k : Fin 256) : ridx_main_v5 (ix2 r q) k = ix2 k q :=
  funext fun a => Fin.ext (by match a with | ⟨0, _⟩ => rfl | ⟨1, _⟩ => rfl)

/-! ## The hidden layer, then the output, at an index -/

/-- The hidden layer at `(r, k)`: `max ((∑ j, x (r, j) * W1 (j, k)) + b1 k) 0`. -/
theorem hidden_apply (x0 : (⟨S100000x512, .f32⟩ : BufTy).Contents (Elt Ideal)) (x1 : (⟨S512x256, .f32⟩ : BufTy).Contents (Elt Ideal)) (x2 : (⟨S256, .f32⟩ : BufTy).Contents (Elt Ideal)) (r : Fin 100000) (k : Fin 256) :
    val_main_v4 (F := Ideal) x0 x1 x2 (ix2 r k)
      = max ((∑ j : Fin 512, x0 (ix2 r j) * x1 (ix2 j k)) + x2 (ix1 k)) 0 := by
  rw [val_main_v4_apply, val_main_v3_apply, val_main_v0_apply, val_main_v2_apply, val_main_v1_apply,
    val_main_call0_v0_apply, val_main_call0_cst_apply, bias1_idx]
  simp only [lhs1_idx, rhs1_idx, Ideal.maximumf_def, Ideal.addf_def, Ideal.ofBits_def, Ideal.ofBits_zero_f32]

/-- The reference's dense result at `(r, q)`. -/
theorem ref_apply (x0 : (⟨S100000x512, .f32⟩ : BufTy).Contents (Elt Ideal)) (x1 : (⟨S512x256, .f32⟩ : BufTy).Contents (Elt Ideal)) (x2 : (⟨S256, .f32⟩ : BufTy).Contents (Elt Ideal)) (x3 : (⟨S256x32, .f32⟩ : BufTy).Contents (Elt Ideal)) (x4 : (⟨S32, .f32⟩ : BufTy).Contents (Elt Ideal)) (r : Fin 100000) (q : Fin 32) :
    val_main_v8 (F := Ideal) x0 x1 x2 x3 x4 (ix2 r q)
      = (∑ k : Fin 256, max ((∑ j : Fin 512, x0 (ix2 r j) * x1 (ix2 j k)) + x2 (ix1 k)) 0 * x3 (ix2 k q)) + x4 (ix1 q) := by
  rw [val_main_v8_apply, val_main_v5_apply, val_main_v7_apply, val_main_v6_apply, bias2_idx]
  simp only [lhs2_idx, rhs2_idx, hidden_apply, Ideal.addf_def]

end Cert.ReferenceIdeal.MlpRef

end
-- ==== Proof.PadRead.lean ====
/-
  The host's layout lines before and after the kernel's region, each read at one index.

  Before the region the first bias `[256]` is reshaped to a row `[1, 256]`; the second weight matrix `[256, 32]` is
  padded on the right of its column axis to `[256, 128]`; the second bias `[32]` is padded to `[128]` and reshaped to a row
  `[1, 128]`. After the region the result `[100000, 128]` is cut back to its first 32 columns. A reshape that adds a leading
  unit axis keeps the row-major position, so the row at column `k` is the vector at `k`. A pad with no low padding and no
  interior padding reads the operand itself at every index inside the operand's box, so at a column `q < 32` the padded
  array is the operand at `q`, whatever the padding value; the slice at offsets `(0, 0)` reads the same coordinates.
-/
import proofs.«141418_j76948634075857_1_alg».proof.Proof.Gen.KernelIdeal
import Idealize.ShloMosaic.Lib.Pipeline.Value
import Idealize.ShloMosaic.Lib.ValueIdx
import Idealize.ShloMosaic.Lib.ValueLayout
import Idealize.ShloMosaic.Lib.KernelVsHost

noncomputable section

namespace Cert.KernelIdeal.PadRead

open Cert.KernelIdeal Cert.KernelIdeal.Gen Idealize.ShloMosaic Idealize.ShloMosaic.ValueIdx

variable {α : Type}

/-- The first bias as a row: `(0, k)` of the reshaped `[1, 256]` array is the vector at `k`. -/
theorem bias1_row (b1 : S256.Idx → α) (k : Fin 256) :
    shapeCast S1x256 b1 shapeCasts_S256_S1x256 (ix2 (0 : Fin 1) k) = b1 (ix1 k) :=
  shapeCast_a_1a_apply b1 shapeCasts_S256_S1x256 (0 : Fin 1) k

/-- The second weight matrix padded to 128 columns, at a column below 32: the matrix itself. On both axes the low
    padding is `0` and there is no interior padding, so `(k, q)` of the padded array is `0 + k * 1`, `0 + q * 1`. -/
theorem w2_pad (w2 : S256x32.Idx → α) (z : S_.Idx → α) (k : Fin 256) (q : Fin 32) :
    pad S256x128 ![0, 0] ![0, 96] ![0, 0] w2 z pads_S256x32_S256x128_000_0960 h_S_ (ix2 k (Fin.castLE (by decide : 32 ≤ 128) q)) = w2 (ix2 k q) :=
  pad_apply_of_inside _ _ _ w2 z pads_S256x32_S256x128_000_0960 h_S_ _ (ix2 k q) (fun a => by
    match a with
    | ⟨0, _⟩ => show k.val = 0 + k.val * (0 + 1); omega
    | ⟨1, _⟩ => show q.val = 0 + q.val * (0 + 1); omega)

/-- The second bias padded to 128 entries, at an entry below 32: the bias itself. -/
theorem bias2_pad (b2 : S32.Idx → α) (z : S_.Idx → α) (q : Fin 32) :
    pad S128 ![0] ![96] ![0] b2 z pads_S32_S128_0960 h_S_ (ix1 (Fin.castLE (by decide : 32 ≤ 128) q)) = b2 (ix1 q) :=
  pad_apply_of_inside _ _ _ b2 z pads_S32_S128_0960 h_S_ _ (ix1 q) (fun a => by
    match a with
    | ⟨0, _⟩ => show q.val = 0 + q.val * (0 + 1); omega)

/-- The padded second bias as a row, at a column below 32: the bias at that entry. -/
theorem bias2_row (b2 : S32.Idx → α) (z : S_.Idx → α) (q : Fin 32) :
    shapeCast S1x128 (pad S128 ![0] ![96] ![0] b2 z pads_S32_S128_0960 h_S_) shapeCasts_S128_S1x128 (ix2 (0 : Fin 1) (Fin.castLE (by decide : 32 ≤ 128) q)) = b2 (ix1 q) :=
  (shapeCast_a_1a_apply _ shapeCasts_S128_S1x128 (0 : Fin 1) _).trans (bias2_pad b2 z q)

/-- The result cut to its first 32 columns: `(r, q)` of the slice is `(r, q)` of the array. -/
theorem slice_cols (a : S100000x128.Idx → α) (r : Fin 100000) (q : Fin 32) :
    extractStridedSlice S100000x32 ![0, 0] a slices_S100000x128_S100000x32_0_0 (ix2 r q) = a (ix2 r (Fin.castLE (by decide : 32 ≤ 128) q)) :=
  slice2_axis1_apply 0 a slices_S100000x128_S100000x32_0_0 r q _ (by show q.val = 0 + q.val; omega)

end Cert.KernelIdeal.PadRead

end
-- ==== Proof.Bridge.lean ====
/-
  The two programs' MLP outputs are one function of the arguments.

  The kernel's region leaves, in the first 32 columns of its 100000 × 128 array, at (r, q):
      Σ_k max(Σ_j x[r, j] · W1[j, k] + B1[0, k], 0) · W2p[k, q] + B2[0, q]
  over the arrays the region finds: `x` and `W1` as launched, `B1` the first bias as a row, `W2p` and `B2` the second
  weight matrix and bias padded from 32 to 128 columns with zeros. For q < 32 the padded arrays hold the unpadded
  entries, so this is Σ_k max(Σ_j x[r, j] · W1[j, k] + b1[k], 0) · W2[k, q] + b2[q] — what the reference's two
  `dot_general`s, bias additions and `maximum` with zero compute at (r, q). No entry needs to be finite: both sides
  are the same finite sums of the same products.
-/
import proofs.«141418_j76948634075857_1_alg».proof.Proof.KernelValue
import proofs.«141418_j76948634075857_1_alg».proof.Proof.RefValue
import proofs.«141418_j76948634075857_1_alg».proof.Proof.MlpRef
import proofs.«141418_j76948634075857_1_alg».proof.Proof.PadRead

noncomputable section

namespace Cert.KernelIdeal.Bridge

open Cert.KernelIdeal Cert.KernelIdeal.Gen Cert.KernelIdeal.Frame Cert.KernelIdeal.KValue
open Idealize.ShloMosaic Idealize.ShloMosaic.TcCoe Idealize.ShloMosaic.ValueIdx
open Idealize.SL.Sem

/-- `mlpPad` at row `r`, column `q`. -/
theorem mlpPad_apply (X : S100000x512.Idx → EReal) (W1 : S512x256.Idx → EReal) (B1 : S1x256.Idx → EReal) (W2 : S256x128.Idx → EReal)
    (B2 : S1x128.Idx → EReal) (r : Fin 100000) (q : Fin 128) :
    mlpPad X W1 B1 W2 B2 (ix2 r q)
      = (∑ k : Fin 256, max ((∑ j : Fin 512, X (ix2 r j) * W1 (ix2 j k)) + B1 (ix2 (0 : Fin 1) k)) 0 * W2 (ix2 k q)) + B2 (ix2 (0 : Fin 1) q) := rfl

set_option maxHeartbeats 1000000 in
/-- The first 32 columns of the region's output array are the reference's MLP of the launch arguments. -/
theorem mlp_eq (m : (ℓ : Loc nD τ sig) → Buf (Elt Ideal) ℓ) (c : Dev nD) :
    extractStridedSlice S100000x32 ![0, 0] (mlpPad (V m c main_arg0) (V m c main_arg1) (V m c main_v0) (V m c main_v1) (V m c main_v3))
        slices_S100000x128_S100000x32_0_0
      = Cert.ReferenceIdeal.ReadP.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) := by
  funext i
  obtain ⟨r, q, rfl⟩ : ∃ (r : Fin 100000) (q : Fin 32), i = ix2 r q := ⟨i 0, i 1, eq_ix2 i⟩
  rw [Cert.KernelIdeal.PadRead.slice_cols, mlpPad_apply, Cert.ReferenceIdeal.MlpRef.ref_apply]
  rw [V_v0 m c, V_v1 m c, V_v3 m c, V_arg m c main_arg0 (by decide), V_arg m c main_arg1 (by decide)]
  simp only [Cert.KernelIdeal.PadRead.bias1_row, Cert.KernelIdeal.PadRead.w2_pad, Cert.KernelIdeal.PadRead.bias2_row]

end Cert.KernelIdeal.Bridge

end
-- ==== Proof.lean ====
/-
  The certificate of the kernel `h = relu(x W1 + b1) W2 + b2` (computed in row blocks of 4000 by one region, the second
  weight matrix and bias padded to 128 columns) followed by five hops of normalised propagation over the edge list,
  against the same computation written with jnp on the host.

  * The three frames. Each kernel program's frame is proved in Proof/FrameBits.lean and Proof/FrameIdeal.lean (one
    text, read at the word-level and at the exact instance): the host lines write only their own results, the body
    leaves its input blocks in place, so every execution terminates, nothing faults and the arguments end unchanged.
    The reference has no region: its frame is its run with the result dropped.
  * `preserves` asks nothing: the idealization rewrote no operation.
  * `algebraic`. At the exact instance both programs end with their result at `propagate e h` (Proof/Propagate.lean):
    the kernel with `h` the first 32 columns of its region's output array (Proof/KernelValue.lean), the reference with
    `h` its host MLP (Proof/RefValue.lean), and the two `h` are one function of the arguments (Proof/Bridge.lean),
    the edge list the same by agreement. The precondition is never opened: nothing needs an entry to be finite.
-/
import proofs.«141418_j76948634075857_1_alg».proof.Defs
import proofs.«141418_j76948634075857_1_alg».proof.Proof.Gen.Kernel
import proofs.«141418_j76948634075857_1_alg».proof.Proof.Gen.KernelIdeal
import proofs.«141418_j76948634075857_1_alg».proof.Proof.Gen.ReferenceIdeal
import proofs.«141418_j76948634075857_1_alg».proof.Proof.Gen.Pre_finite_inputs
import proofs.«141418_j76948634075857_1_alg».proof.Proof.FrameBits
import proofs.«141418_j76948634075857_1_alg».proof.Proof.Bridge

noncomputable section

namespace Cert.Proof

open Idealize.ShloMosaic Idealize.SL.Sem

theorem frame_kernel : Cert.frame_Kernel := fun m ρ _ => Cert.Kernel.Frame.frame (F := Bits) m ρ
theorem frame_kernelIdeal : Cert.frame_KernelIdeal := fun m ρ _ => Cert.KernelIdeal.Frame.frame (F := Ideal) m ρ
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end at the propagation of the edge list and of the reference's MLP of the arguments. -/
theorem algebraic : Cert.algebraic_KernelIdeal_ReferenceIdeal := by
  intro m ρ m' ρ' _ hagree
  refine ⟨fun c => Cert.ReferenceIdeal.Propagate.propagate (F := Ideal) (m ((c.tc : Thread Cert.KernelIdeal.nD Cert.KernelIdeal.τ).loc Cert.KernelIdeal.main_arg5))
      (Cert.ReferenceIdeal.ReadP.val_main_v8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))), ?_, ?_⟩
  · exact (θ_run Cert.KernelIdeal.defs _ _).mono
      (fun r h c => ⟨(h c).1.trans (congrArg (Cert.ReferenceIdeal.Propagate.propagate (F := Ideal) _) (Cert.KernelIdeal.Bridge.mlp_eq m c)), (h c).2⟩)
      (Cert.KernelIdeal.KValue.run m ρ)
  · refine (θ_run Cert.ReferenceIdeal.defs _ _).mono (fun r h c => ⟨(h c).1.trans ?_, (h c).2⟩)
      (Cert.ReferenceIdeal.RefValue.run (F := Ideal) m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
